-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S8192x1024 : Shape := ⟨2, ![8192, 1024]⟩
abbrev S512x1024 : Shape := ⟨2, ![512, 1024]⟩
abbrev S512x3072 : Shape := ⟨2, ![512, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩
abbrev S1x1024 : Shape := ⟨2, ![1, 1024]⟩

abbrev nBuf : Space → Nat
  | .hbm => 26
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x3072, .f32⟩
  | .hbm, ⟨10, _⟩ => ⟨S1024x3072, .bf16⟩
  | .hbm, ⟨11, _⟩ => ⟨S3072, .f32⟩
  | .hbm, ⟨12, _⟩ => ⟨S1x3072, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .bf16⟩
  | .hbm, ⟨21, _⟩ => ⟨S8192x1024, .bf16⟩
  | .hbm, ⟨22, _⟩ => ⟨S1024x1024, .bf16⟩
  | .hbm, ⟨23, _⟩ => ⟨S1x1024, .f32⟩
  | .hbm, ⟨24, _⟩ => ⟨S8192x1024, .f32⟩
  | .hbm, ⟨25, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x128, .bf16⟩
  | .local _ .vmem, ⟨11, _⟩ => ⟨S1x512x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x512x128, .bf16⟩
  | .local _ .vmem, ⟨17, _⟩ => ⟨S1x512x128, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  packedbf16_S1x512x128_S1x512x64_0_0_0 : (Rect.unit (s := S1x512x128) ![0, 0, 0] S1x512x64.size inb_S1x512x128_S1x512x64_0_0_0).PackedRows (EltTy.packing .bf16)
  slices_S512x128_o0_64_S512x64 : S512x128.Slices ![0, 64] S512x64
  slices_S2048x128_o0_64_S2048x64 : S2048x128.Slices ![0, 64] S2048x64
  inb_S1x512x128_S1x512x64_0_0_64 : ∀ a, (![0, 0, 64] : Fin 3 → Nat) a + S1x512x64.size a ≤ S1x512x128.size a
  packedbf16_S1x512x128_S1x512x64_0_0_64 : (Rect.unit (s := S1x512x128) ![0, 0, 64] S1x512x64.size inb_S1x512x128_S1x512x64_0_0_64).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1024.size a
  hwx1_0 : ∀ i : grid1.Coords, EltTy.bits .bf16 = 32 ∨ (Rect.block (s := S4x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1024.size a
  hwx1_1 : ∀ i : grid1.Coords, EltTy.bits .bf16 = 32 ∨ (Rect.block (s := S4x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1024.size a
  hwx1_2 : ∀ i : grid1.Coords, EltTy.bits .bf16 = 32 ∨ (Rect.block (s := S4x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_0_01_1_n_n_wf : DotDims.WF S4x2048x1024 S1024x1024 S4x2048x1024 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.BitsR0Defs.lean ====
import proofs.«135862_j34411277975788_2_alg».proof.Proof.Gen.Kernel.Launch
import proofs.«135862_j34411277975788_2_alg».proof.Proof.Gen.Kernel.Skeleton
import proofs.«135862_j34411277975788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The fused query / key / value projection (the first pallas_call), at a parameter `V`

`V` is what the TensorCore's buffers hold when the call is entered. The call walks 16 row blocks of 512 rows; at block `t`
it reads rows `512 t … 512 t + 511` of the flattened input, the whole 1024 × 3072 matrix of the three weight matrices side by
side and the 1 × 3072 row of the three biases, forms the 512 × 3072 product plus bias, and writes its three column thirds to
the same rows of the three results. This module names each window's block at a grid point, what the body leaves in each
result window's staging buffer as a function of the three input blocks, and the pipeline's proof data. -/

section
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds block `t` at grid point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The joined weight matrix is fetched once and stays: its staging buffer holds it at every grid point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The joined bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_rows : Rect S512x1024 := Rect.unit (s := S512x1024) ![0, 0] S512x1024.size inb_S512x1024_S512x1024_0_0
abbrev r0_wts : Rect S1024x3072 := Rect.unit (s := S1024x3072) ![0, 0] S1024x3072.size inb_S1024x3072_S1024x3072_0_0
abbrev r0_bias : Rect S1x3072 := Rect.unit (s := S1x3072) ![0, 0] S1x3072.size inb_S1x3072_S1x3072_0_0

/-- What the body leaves in the query window's staging buffer: its one store, of columns 0 … 1023 of the product plus bias. -/
def out0_3 (x0 : Vec F S512x1024 .f32) (x1 : Vec F S1024x3072 .bf16) (x2 : Vec F S1x3072 .f32) : Vec F S512x1024 .bf16 :=
  View.canon [⟨r0_rows, k0_pay2 (View.ld x0 r0_rows) (View.ld x1 r0_wts) (View.ld x2 r0_bias)⟩]
/-- The key window's: columns 1024 … 2047. -/
def out0_4 (x0 : Vec F S512x1024 .f32) (x1 : Vec F S1024x3072 .bf16) (x2 : Vec F S1x3072 .f32) : Vec F S512x1024 .bf16 :=
  View.canon [⟨r0_rows, k0_pay3 (View.ld x0 r0_rows) (View.ld x1 r0_wts) (View.ld x2 r0_bias)⟩]
/-- The value window's: columns 2048 … 3071. -/
def out0_5 (x0 : Vec F S512x1024 .f32) (x1 : Vec F S1024x3072 .bf16) (x2 : Vec F S1x3072 .f32) : Vec F S512x1024 .bf16 :=
  View.canon [⟨r0_rows, k0_pay4 (View.ld x0 r0_rows) (View.ld x1 r0_wts) (View.ld x2 r0_bias)⟩]

/-- One whole-buffer store covers the buffer. -/
theorem cover0_out (p0 : Vec F S512x1024 .bf16) (y : S512x1024.Idx) :
    ∃ pc ∈ ([⟨r0_rows, p0⟩] : List (View.Piece (Elt F) S512x1024 .bf16)), y ∈ pc.1.set :=
  View.cover_of_tiled [⟨r0_rows, p0⟩] S512x1024.size (by rfl) y

/-! ## The pipeline's proof data -/

/-- The arrays as the call finds them; after the body at grid point `t` each input's buffer still at its block and each
    result's at its third of the product of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end

end Cert.Kernel.Hand

end
-- ==== Proof.BitsR0Body.lean ====
import proofs.«135862_j34411277975788_2_alg».proof.Proof.Gen.Kernel.Launch
import proofs.«135862_j34411277975788_2_alg».proof.Proof.Gen.Kernel.Skeleton
import proofs.«135862_j34411277975788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135862_j34411277975788_2_alg».proof.Proof.BitsR0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The fused projection's body at one grid point

The body loads the three input buffers whole, forms the product plus bias once, and stores its three column thirds over the
three result buffers whole; so from any contents of the result buffers it ends with the inputs as found and each result at
its third. -/

section
variable (V : (c : Dev nD) → (b : Ref sig .tc) → Buf (Elt F) ((c : Thread nD τ).loc b))

set_option maxHeartbeats 1000000 in
/-- The body on whole staging buffers: the inputs at contents `x0 x1 x2`, the results at anything, run to the continuation
    holding the inputs unchanged and the results at `out0_3`, `out0_4`, `out0_5` of them. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every grid point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.BitsR1Defs.lean ====
import proofs.«135862_j34411277975788_2_alg».proof.Proof.Gen.Kernel.Launch
import proofs.«135862_j34411277975788_2_alg».proof.Proof.Gen.Kernel.Skeleton
import proofs.«135862_j34411277975788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention call (the second pallas_call), at a parameter `V`

`V` is what the TensorCore's buffers hold when the call is entered. The grid is batch × head pair × query block
(4 × 8 × 4). At a grid point the body reads a 512 × 128 block of queries (two heads of 64 lanes side by side), and the whole
2048 × 128 key and value slabs of the same batch entry and head pair; for each of the two heads it forms the scaled scores,
their row softmax numerators and row sums, the weighted sum of the values and its quotient by the row sum, and stores the
head's 512 × 64 result into its half of the 512 × 128 result block. This module names each window's block at a grid point,
what the body leaves in the result window's staging buffer — two stores, one per head — and the pipeline's proof data. -/

section
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds the grid point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key slab is fetched when the batch entry or head pair changes and stays across the query blocks: its staging buffer holds the grid point's slab either way. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value slab likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0
/-- The first head's half of the result block: lanes 0 … 63. -/
abbrev r1_lo : Rect S1x512x128 := Rect.unit (s := S1x512x128) ![0, 0, 0] S1x512x64.size inb_S1x512x128_S1x512x64_0_0_0
/-- The second head's half: lanes 64 … 127. -/
abbrev r1_hi : Rect S1x512x128 := Rect.unit (s := S1x512x128) ![0, 0, 64] S1x512x64.size inb_S1x512x128_S1x512x64_0_0_64

/-- What the body leaves in the result window's staging buffer: its two stores, the later first — the second head's
    result into lanes 64 … 127, the first head's into lanes 0 … 63. -/
def out1_3 (x0 : Vec F S1x512x128 .bf16) (x1 : Vec F S1x2048x128 .bf16) (x2 : Vec F S1x2048x128 .bf16) : Vec F S1x512x128 .bf16 :=
  View.canon [⟨r1_hi, k1_pay1 (k1_pay6 (View.ld x2 r1_kv)) (k1_pay7 (View.ld x0 r1_q) (View.ld x1 r1_kv)) (k1_pay8 (View.ld x0 r1_q) (View.ld x1 r1_kv))⟩,
    ⟨r1_lo, k1_pay5 (View.ld x0 r1_q) (View.ld x1 r1_kv) (View.ld x2 r1_kv)⟩]

/-- The two half-block stores tile the buffer, so they cover it. -/
theorem cover1_3 (p0 p1 : Vec F S1x512x64 .bf16) (y : S1x512x128.Idx) :
    ∃ pc ∈ ([⟨r1_hi, p0⟩, ⟨r1_lo, p1⟩] : List (View.Piece (Elt F) S1x512x128 .bf16)), y ∈ pc.1.set :=
  View.cover_of_tiled [⟨r1_hi, p0⟩, ⟨r1_lo, p1⟩] S1x512x64.size (by rfl) y

/-! ## The pipeline's proof data -/

/-- The arrays as the call finds them; after the body at grid point `t` each input's buffer still at its block and the
    result's at `out1_3` of the three input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.Kernel.Hand

end
-- ==== Proof.BitsR1Body.lean ====
import proofs.«135862_j34411277975788_2_alg».proof.Proof.Gen.Kernel.Launch
import proofs.«135862_j34411277975788_2_alg».proof.Proof.Gen.Kernel.Skeleton
import proofs.«135862_j34411277975788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135862_j34411277975788_2_alg».proof.Proof.BitsR1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention body at one grid point

The body loads the query block and the key and value slabs whole, stores the first head's result into lanes 0 … 63 of the
result buffer and then the second head's into lanes 64 … 127; so from any contents of the result buffer it ends with the
inputs as found and the result at `out1_3` of them. -/

section
variable (V : (c : Dev nD) → (b : Ref sig .tc) → Buf (Elt F) ((c : Thread nD τ).loc b))

set_option maxHeartbeats 1000000 in
/-- The body on whole staging buffers: the inputs at contents `x0 x1 x2`, the result at anything, run to the continuation
    holding the inputs unchanged and the result at `out1_3 x0 x1 x2`. -/
theorem sound_kernel1 (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x512x128 .bf16) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every grid point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.BitsR2Defs.lean ====
import proofs.«135862_j34411277975788_2_alg».proof.Proof.Gen.Kernel.Launch
import proofs.«135862_j34411277975788_2_alg».proof.Proof.Gen.Kernel.Skeleton
import proofs.«135862_j34411277975788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The output projection (the third pallas_call), at a parameter `V`

`V` is what the TensorCore's buffers hold when the call is entered. The call walks 16 row blocks of 512 rows; at block `t`
it reads rows `512 t … 512 t + 511` of the head matrix, the whole weight matrix and the bias row, and writes the same rows of
the result. This module names each window's block at a grid point, what the body leaves in the output window's staging buffer
as a function of the three input blocks, and the pipeline's proof data. -/

section
variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The head rows' staging buffer holds block `t` at grid point `t`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is fetched once and stays: its staging buffer holds it at every grid point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_rows : Rect S512x1024 := Rect.unit (s := S512x1024) ![0, 0] S512x1024.size inb_S512x1024_S512x1024_0_0
abbrev r2_wts : Rect S1024x1024 := Rect.unit (s := S1024x1024) ![0, 0] S1024x1024.size inb_S1024x1024_S1024x1024_0_0
abbrev r2_bias : Rect S1x1024 := Rect.unit (s := S1x1024) ![0, 0] S1x1024.size inb_S1x1024_S1x1024_0_0

/-- What the body leaves in the result window's staging buffer: its one store, of the product of the head rows with the
    weights plus the bias row. -/
def out2_3 (x0 : Vec F S512x1024 .bf16) (x1 : Vec F S1024x1024 .bf16) (x2 : Vec F S1x1024 .f32) : Vec F S512x1024 .f32 :=
  View.canon [⟨r2_rows, k2_pay1 (View.ld x0 r2_rows) (View.ld x1 r2_wts) (View.ld x2 r2_bias)⟩]

/-- The one store covers the buffer. -/
theorem cover2_3 (p0 : Vec F S512x1024 .f32) (y : S512x1024.Idx) :
    ∃ pc ∈ ([⟨r2_rows, p0⟩] : List (View.Piece (Elt F) S512x1024 .f32)), y ∈ pc.1.set :=
  View.cover_of_tiled [⟨r2_rows, p0⟩] S512x1024.size (by rfl) y

/-! ## The pipeline's proof data -/

/-- The arrays as the call finds them; after the body at grid point `t` each input's buffer still at its block and the
    result's at `out2_3` of the three input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end

end Cert.Kernel.Hand

end
-- ==== Proof.BitsR2Body.lean ====
import proofs.«135862_j34411277975788_2_alg».proof.Proof.Gen.Kernel.Launch
import proofs.«135862_j34411277975788_2_alg».proof.Proof.Gen.Kernel.Skeleton
import proofs.«135862_j34411277975788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135862_j34411277975788_2_alg».proof.Proof.BitsR2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The output projection's body at one grid point

The body loads the three input buffers whole, forms the product plus the bias row, and stores it over the whole result
buffer; so from any contents of the result buffer it ends with the inputs as found and the result at `out2_3` of them. -/

section
variable (V : (c : Dev nD) → (b : Ref sig .tc) → Buf (Elt F) ((c : Thread nD τ).loc b))

set_option maxHeartbeats 1000000 in
/-- The body on whole staging buffers: the inputs at contents `x0 x1 x2`, the result at anything, run to the continuation
    holding the inputs unchanged and the result at `out2_3 x0 x1 x2`. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at grid point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every grid point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.BitsRun.lean ====
import proofs.«135862_j34411277975788_2_alg».proof.Proof.Gen.Kernel.Launch
import proofs.«135862_j34411277975788_2_alg».proof.Proof.Gen.Kernel.Skeleton
import proofs.«135862_j34411277975788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135862_j34411277975788_2_alg».proof.Proof.Gen.Kernel.Regions
import proofs.«135862_j34411277975788_2_alg».proof.Proof.BitsR0Body
import proofs.«135862_j34411277975788_2_alg».proof.Proof.BitsR1Body
import proofs.«135862_j34411277975788_2_alg».proof.Proof.BitsR2Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: four stretches of host operations around three pallas_calls

The buffer contents at each of the eight boundaries are a fold from the launch memory: a host stretch applies its
operations; a pallas_call leaves each of its arrays at what its write-backs leave (an input as entered, a result at the
fold of its blocks' write-backs) and every other buffer as entered. Each call is one segment of the run, entered and left
with every unscoped buffer held at the boundary's contents, the generator register at some state, nothing owed. The launch
theorem for a list of segments then gives: every weakly fair execution terminates, faults nowhere, and ends with EVERY
unscoped buffer at the last boundary's contents — of which the frame claim keeps the nine arguments and the value claim
reads the result. -/

variable (m : (ℓ : Loc nD τ sig) → Buf (Elt F) ℓ)

/-! ## The buffer contents at the boundaries -/

/-- At launch. -/
abbrev W0 : Dev nD → Valuation τ sig (Elt F) := fun c b => m (c, b)
/-- After the first host stretch (the joined weights, the joined biases, the flattened input): the first call's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the fused projection. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the three projections regrouped by batch entry): the attention call's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the attention call. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third host stretch (the heads flattened, the output weights, the bias row): the output projection's entry. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After the output projection. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the last host stretch (the result regrouped by batch entry): what @main returns from. -/
abbrev W7 : Dev nD → Valuation τ sig (Elt F) := fun c => StableHlo.after hostOps3 (W6 m c)

/-- A buffer that no host stretch writes and that is no call's array ends as launched. -/
theorem W7_untouched (c : Dev nD) (b : Ref sig .tc)
    (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_of_ne m c b a2
    _ = W4 m c (Proc.devRef .tc b) := StableHlo.after_of_writes_sub hostOps2 _ hostOps2_writes h2
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

/-! ## The proof data family and the thread state -/

/-- No pallas_call has a prefetched table. -/
abbrev admH : (p : Fin 3) → (pcfgs (F := F) p).Adm := fun p => (cfgs p).toPCfg_adm
/-- Each call's proof data at its entry contents. -/
def pdatsH : (p : Fin 3) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
abbrev 𝒱n : Variants := Variants.none
/-- No core owes another anything: no level is assigned. -/
abbrev L₀ : GSem nD τ sig → Finset Unit := fun _ => ∅
abbrev lv₀ : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment over the unscoped buffers from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W7`, the generator register at some state. -/
abbrev Tlast (c : Dev nD) : sProp 𝕄 := iprop(StableHlo.held (c : Thread nD τ) (Pipeline.ucRefs τ sig) (W7 m c) ∗ ∃ r, prngReg c r)

/-! ## The three calls as segments -/

set_option backward.isDefEq.respectTransparency.types false in
/-- The fused projection as a segment: entered with every unscoped buffer at `W1`, left with them at `W2`. Its arrays are
    split out of the unscoped buffers at entry and put back at their final contents at exit; the generator register rides
    through the body's invariant; nothing is owed and the kernel has no semaphore of its own. -/
def reg0 : Pipeline.RegionSeg (pcfgs (F := F)) admH (pdatsH m) () defs₀ 𝒱n L₀ lv₀ 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L₀ lv₀ 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment: entered with every unscoped buffer at `W3`, left with them at `W4`; the same shape. -/
def reg1 : Pipeline.RegionSeg (pcfgs (F := F)) admH (pdatsH m) () defs₀ 𝒱n L₀ lv₀ 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L₀ lv₀ 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection as a segment: entered with every unscoped buffer at `W5`, left with them at `W6`; the same shape. -/
def reg2 : Pipeline.RegionSeg (pcfgs (F := F)) admH (pdatsH m) () defs₀ 𝒱n L₀ lv₀ 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L₀ lv₀ 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segsH : List (Pipeline.Seg (pcfgs (F := F)) admH (pdatsH m) () defs₀ 𝒱n L₀ lv₀) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)) ]

/-- @main IS the run of the segments. -/
theorem main_run (c : Dev nD) : main (F := F) c = Pipeline.Seg.run (segsH m) := (main_chain c).trans (by chain_rfl)

set_option backward.isDefEq.respectTransparency.types false in
/-- THE RUN: from any memory with zero counters every weakly fair execution of @main terminates, nothing faulting, and every
    final memory holds every unscoped buffer of every core at the last boundary's contents `W7`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) admH (pdatsH m) () cellOf_inj emb₁ defs₀ 𝒱n L₀ lv₀ m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tlast m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ Rst c) : sProp 𝕄)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: the nine argument arrays end as launched — no host stretch writes one, no call has one as an array. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_untouched m c main_arg0 (by decide) (by decide) (by decide) (by decide) (by decide) (by decide) (by decide)),
     (h c _ (mem_uc main_arg1 (by decide))).trans (W7_untouched m c main_arg1 (by decide) (by decide) (by decide) (by decide) (by decide) (by decide) (by decide)),
     (h c _ (mem_uc main_arg2 (by decide))).trans (W7_untouched m c main_arg2 (by decide) (by decide) (by decide) (by decide) (by decide) (by decide) (by decide)),
     (h c _ (mem_uc main_arg3 (by decide))).trans (W7_untouched m c main_arg3 (by decide) (by decide) (by decide) (by decide) (by decide) (by decide) (by decide)),
     (h c _ (mem_uc main_arg4 (by decide))).trans (W7_untouched m c main_arg4 (by decide) (by decide) (by decide) (by decide) (by decide) (by decide) (by decide)),
     (h c _ (mem_uc main_arg5 (by decide))).trans (W7_untouched m c main_arg5 (by decide) (by decide) (by decide) (by decide) (by decide) (by decide) (by decide)),
     (h c _ (mem_uc main_arg6 (by decide))).trans (W7_untouched m c main_arg6 (by decide) (by decide) (by decide) (by decide) (by decide) (by decide) (by decide)),
     (h c _ (mem_uc main_arg7 (by decide))).trans (W7_untouched m c main_arg7 (by decide) (by decide) (by decide) (by decide) (by decide) (by decide) (by decide)),
     (h c _ (mem_uc main_arg8 (by decide))).trans (W7_untouched m c main_arg8 (by decide) (by decide) (by decide) (by decide) (by decide) (by decide) (by decide))⟩)
    (run_all m ρ)

end Cert.Kernel.Hand

end
-- ==== Proof.IdealR0Defs.lean ====
import proofs.«135862_j34411277975788_2_alg».proof.Proof.Gen.KernelIdeal.Launch
import proofs.«135862_j34411277975788_2_alg».proof.Proof.Gen.KernelIdeal.Skeleton
import proofs.«135862_j34411277975788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The fused query / key / value projection (the first pallas_call), at a parameter `V`

`V` is what the TensorCore's buffers hold when the call is entered. The call walks 16 row blocks of 512 rows; at block `t`
it reads rows `512 t … 512 t + 511` of the flattened input, the whole 1024 × 3072 matrix of the three weight matrices side by
side and the 1 × 3072 row of the three biases, forms the 512 × 3072 product plus bias, and writes its three column thirds to
the same rows of the three results. This module names each window's block at a grid point, what the body leaves in each
result window's staging buffer as a function of the three input blocks, and the pipeline's proof data. -/

section
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds block `t` at grid point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The joined weight matrix is fetched once and stays: its staging buffer holds it at every grid point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The joined bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_rows : Rect S512x1024 := Rect.unit (s := S512x1024) ![0, 0] S512x1024.size inb_S512x1024_S512x1024_0_0
abbrev r0_wts : Rect S1024x3072 := Rect.unit (s := S1024x3072) ![0, 0] S1024x3072.size inb_S1024x3072_S1024x3072_0_0
abbrev r0_bias : Rect S1x3072 := Rect.unit (s := S1x3072) ![0, 0] S1x3072.size inb_S1x3072_S1x3072_0_0

/-- What the body leaves in the query window's staging buffer: its one store, of columns 0 … 1023 of the product plus bias. -/
def out0_3 (x0 : Vec F S512x1024 .f32) (x1 : Vec F S1024x3072 .bf16) (x2 : Vec F S1x3072 .f32) : Vec F S512x1024 .bf16 :=
  View.canon [⟨r0_rows, k0_pay2 (View.ld x0 r0_rows) (View.ld x1 r0_wts) (View.ld x2 r0_bias)⟩]
/-- The key window's: columns 1024 … 2047. -/
def out0_4 (x0 : Vec F S512x1024 .f32) (x1 : Vec F S1024x3072 .bf16) (x2 : Vec F S1x3072 .f32) : Vec F S512x1024 .bf16 :=
  View.canon [⟨r0_rows, k0_pay3 (View.ld x0 r0_rows) (View.ld x1 r0_wts) (View.ld x2 r0_bias)⟩]
/-- The value window's: columns 2048 … 3071. -/
def out0_5 (x0 : Vec F S512x1024 .f32) (x1 : Vec F S1024x3072 .bf16) (x2 : Vec F S1x3072 .f32) : Vec F S512x1024 .bf16 :=
  View.canon [⟨r0_rows, k0_pay4 (View.ld x0 r0_rows) (View.ld x1 r0_wts) (View.ld x2 r0_bias)⟩]

/-- One whole-buffer store covers the buffer. -/
theorem cover0_out (p0 : Vec F S512x1024 .bf16) (y : S512x1024.Idx) :
    ∃ pc ∈ ([⟨r0_rows, p0⟩] : List (View.Piece (Elt F) S512x1024 .bf16)), y ∈ pc.1.set :=
  View.cover_of_tiled [⟨r0_rows, p0⟩] S512x1024.size (by rfl) y

/-! ## The pipeline's proof data -/

/-- The arrays as the call finds them; after the body at grid point `t` each input's buffer still at its block and each
    result's at its third of the product of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end

end Cert.KernelIdeal.Hand

end
-- ==== Proof.IdealR0Body.lean ====
import proofs.«135862_j34411277975788_2_alg».proof.Proof.Gen.KernelIdeal.Launch
import proofs.«135862_j34411277975788_2_alg».proof.Proof.Gen.KernelIdeal.Skeleton
import proofs.«135862_j34411277975788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135862_j34411277975788_2_alg».proof.Proof.IdealR0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The fused projection's body at one grid point

The body loads the three input buffers whole, forms the product plus bias once, and stores its three column thirds over the
three result buffers whole; so from any contents of the result buffers it ends with the inputs as found and each result at
its third. -/

section
variable (V : (c : Dev nD) → (b : Ref sig .tc) → Buf (Elt F) ((c : Thread nD τ).loc b))

set_option maxHeartbeats 1000000 in
/-- The body on whole staging buffers: the inputs at contents `x0 x1 x2`, the results at anything, run to the continuation
    holding the inputs unchanged and the results at `out0_3`, `out0_4`, `out0_5` of them. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every grid point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.IdealR1Defs.lean ====
import proofs.«135862_j34411277975788_2_alg».proof.Proof.Gen.KernelIdeal.Launch
import proofs.«135862_j34411277975788_2_alg».proof.Proof.Gen.KernelIdeal.Skeleton
import proofs.«135862_j34411277975788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention call (the second pallas_call), at a parameter `V`

`V` is what the TensorCore's buffers hold when the call is entered. The grid is batch × head pair × query block
(4 × 8 × 4). At a grid point the body reads a 512 × 128 block of queries (two heads of 64 lanes side by side), and the whole
2048 × 128 key and value slabs of the same batch entry and head pair; for each of the two heads it forms the scaled scores,
their row softmax numerators and row sums, the weighted sum of the values and its quotient by the row sum, and stores the
head's 512 × 64 result into its half of the 512 × 128 result block. This module names each window's block at a grid point,
what the body leaves in the result window's staging buffer — two stores, one per head — and the pipeline's proof data. -/

section
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds the grid point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key slab is fetched when the batch entry or head pair changes and stays across the query blocks: its staging buffer holds the grid point's slab either way. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value slab likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0
/-- The first head's half of the result block: lanes 0 … 63. -/
abbrev r1_lo : Rect S1x512x128 := Rect.unit (s := S1x512x128) ![0, 0, 0] S1x512x64.size inb_S1x512x128_S1x512x64_0_0_0
/-- The second head's half: lanes 64 … 127. -/
abbrev r1_hi : Rect S1x512x128 := Rect.unit (s := S1x512x128) ![0, 0, 64] S1x512x64.size inb_S1x512x128_S1x512x64_0_0_64

/-- What the body leaves in the result window's staging buffer: its two stores, the later first — the second head's
    result into lanes 64 … 127, the first head's into lanes 0 … 63. -/
def out1_3 (x0 : Vec F S1x512x128 .bf16) (x1 : Vec F S1x2048x128 .bf16) (x2 : Vec F S1x2048x128 .bf16) : Vec F S1x512x128 .bf16 :=
  View.canon [⟨r1_hi, k1_pay1 (k1_pay6 (View.ld x2 r1_kv)) (k1_pay7 (View.ld x0 r1_q) (View.ld x1 r1_kv)) (k1_pay8 (View.ld x0 r1_q) (View.ld x1 r1_kv))⟩,
    ⟨r1_lo, k1_pay5 (View.ld x0 r1_q) (View.ld x1 r1_kv) (View.ld x2 r1_kv)⟩]

/-- The two half-block stores tile the buffer, so they cover it. -/
theorem cover1_3 (p0 p1 : Vec F S1x512x64 .bf16) (y : S1x512x128.Idx) :
    ∃ pc ∈ ([⟨r1_hi, p0⟩, ⟨r1_lo, p1⟩] : List (View.Piece (Elt F) S1x512x128 .bf16)), y ∈ pc.1.set :=
  View.cover_of_tiled [⟨r1_hi, p0⟩, ⟨r1_lo, p1⟩] S1x512x64.size (by rfl) y

/-! ## The pipeline's proof data -/

/-- The arrays as the call finds them; after the body at grid point `t` each input's buffer still at its block and the
    result's at `out1_3` of the three input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.KernelIdeal.Hand

end
-- ==== Proof.IdealR1Body.lean ====
import proofs.«135862_j34411277975788_2_alg».proof.Proof.Gen.KernelIdeal.Launch
import proofs.«135862_j34411277975788_2_alg».proof.Proof.Gen.KernelIdeal.Skeleton
import proofs.«135862_j34411277975788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135862_j34411277975788_2_alg».proof.Proof.IdealR1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention body at one grid point

The body loads the query block and the key and value slabs whole, stores the first head's result into lanes 0 … 63 of the
result buffer and then the second head's into lanes 64 … 127; so from any contents of the result buffer it ends with the
inputs as found and the result at `out1_3` of them. -/

section
variable (V : (c : Dev nD) → (b : Ref sig .tc) → Buf (Elt F) ((c : Thread nD τ).loc b))

set_option maxHeartbeats 1000000 in
/-- The body on whole staging buffers: the inputs at contents `x0 x1 x2`, the result at anything, run to the continuation
    holding the inputs unchanged and the result at `out1_3 x0 x1 x2`. -/
theorem sound_kernel1 (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x512x128 .bf16) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every grid point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.IdealR2Defs.lean ====
import proofs.«135862_j34411277975788_2_alg».proof.Proof.Gen.KernelIdeal.Launch
import proofs.«135862_j34411277975788_2_alg».proof.Proof.Gen.KernelIdeal.Skeleton
import proofs.«135862_j34411277975788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The output projection (the third pallas_call), at a parameter `V`

`V` is what the TensorCore's buffers hold when the call is entered. The call walks 16 row blocks of 512 rows; at block `t`
it reads rows `512 t … 512 t + 511` of the head matrix, the whole weight matrix and the bias row, and writes the same rows of
the result. This module names each window's block at a grid point, what the body leaves in the output window's staging buffer
as a function of the three input blocks, and the pipeline's proof data. -/

section
variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The head rows' staging buffer holds block `t` at grid point `t`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is fetched once and stays: its staging buffer holds it at every grid point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_rows : Rect S512x1024 := Rect.unit (s := S512x1024) ![0, 0] S512x1024.size inb_S512x1024_S512x1024_0_0
abbrev r2_wts : Rect S1024x1024 := Rect.unit (s := S1024x1024) ![0, 0] S1024x1024.size inb_S1024x1024_S1024x1024_0_0
abbrev r2_bias : Rect S1x1024 := Rect.unit (s := S1x1024) ![0, 0] S1x1024.size inb_S1x1024_S1x1024_0_0

/-- What the body leaves in the result window's staging buffer: its one store, of the product of the head rows with the
    weights plus the bias row. -/
def out2_3 (x0 : Vec F S512x1024 .bf16) (x1 : Vec F S1024x1024 .bf16) (x2 : Vec F S1x1024 .f32) : Vec F S512x1024 .f32 :=
  View.canon [⟨r2_rows, k2_pay1 (View.ld x0 r2_rows) (View.ld x1 r2_wts) (View.ld x2 r2_bias)⟩]

/-- The one store covers the buffer. -/
theorem cover2_3 (p0 : Vec F S512x1024 .f32) (y : S512x1024.Idx) :
    ∃ pc ∈ ([⟨r2_rows, p0⟩] : List (View.Piece (Elt F) S512x1024 .f32)), y ∈ pc.1.set :=
  View.cover_of_tiled [⟨r2_rows, p0⟩] S512x1024.size (by rfl) y

/-! ## The pipeline's proof data -/

/-- The arrays as the call finds them; after the body at grid point `t` each input's buffer still at its block and the
    result's at `out2_3` of the three input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end

end Cert.KernelIdeal.Hand

end
-- ==== Proof.IdealR2Body.lean ====
import proofs.«135862_j34411277975788_2_alg».proof.Proof.Gen.KernelIdeal.Launch
import proofs.«135862_j34411277975788_2_alg».proof.Proof.Gen.KernelIdeal.Skeleton
import proofs.«135862_j34411277975788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135862_j34411277975788_2_alg».proof.Proof.IdealR2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The output projection's body at one grid point

The body loads the three input buffers whole, forms the product plus the bias row, and stores it over the whole result
buffer; so from any contents of the result buffer it ends with the inputs as found and the result at `out2_3` of them. -/

section
variable (V : (c : Dev nD) → (b : Ref sig .tc) → Buf (Elt F) ((c : Thread nD τ).loc b))

set_option maxHeartbeats 1000000 in
/-- The body on whole staging buffers: the inputs at contents `x0 x1 x2`, the result at anything, run to the continuation
    holding the inputs unchanged and the result at `out2_3 x0 x1 x2`. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at grid point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every grid point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.IdealRun.lean ====
import proofs.«135862_j34411277975788_2_alg».proof.Proof.Gen.KernelIdeal.Launch
import proofs.«135862_j34411277975788_2_alg».proof.Proof.Gen.KernelIdeal.Skeleton
import proofs.«135862_j34411277975788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135862_j34411277975788_2_alg».proof.Proof.Gen.KernelIdeal.Regions
import proofs.«135862_j34411277975788_2_alg».proof.Proof.IdealR0Body
import proofs.«135862_j34411277975788_2_alg».proof.Proof.IdealR1Body
import proofs.«135862_j34411277975788_2_alg».proof.Proof.IdealR2Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: four stretches of host operations around three pallas_calls

The buffer contents at each of the eight boundaries are a fold from the launch memory: a host stretch applies its
operations; a pallas_call leaves each of its arrays at what its write-backs leave (an input as entered, a result at the
fold of its blocks' write-backs) and every other buffer as entered. Each call is one segment of the run, entered and left
with every unscoped buffer held at the boundary's contents, the generator register at some state, nothing owed. The launch
theorem for a list of segments then gives: every weakly fair execution terminates, faults nowhere, and ends with EVERY
unscoped buffer at the last boundary's contents — of which the frame claim keeps the nine arguments and the value claim
reads the result. -/

variable (m : (ℓ : Loc nD τ sig) → Buf (Elt F) ℓ)

/-! ## The buffer contents at the boundaries -/

/-- At launch. -/
abbrev W0 : Dev nD → Valuation τ sig (Elt F) := fun c b => m (c, b)
/-- After the first host stretch (the joined weights, the joined biases, the flattened input): the first call's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the fused projection. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the three projections regrouped by batch entry): the attention call's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the attention call. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third host stretch (the heads flattened, the output weights, the bias row): the output projection's entry. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After the output projection. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the last host stretch (the result regrouped by batch entry): what @main returns from. -/
abbrev W7 : Dev nD → Valuation τ sig (Elt F) := fun c => StableHlo.after hostOps3 (W6 m c)

/-- A buffer that no host stretch writes and that is no call's array ends as launched. -/
theorem W7_untouched (c : Dev nD) (b : Ref sig .tc)
    (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_of_ne m c b a2
    _ = W4 m c (Proc.devRef .tc b) := StableHlo.after_of_writes_sub hostOps2 _ hostOps2_writes h2
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

/-! ## The proof data family and the thread state -/

/-- No pallas_call has a prefetched table. -/
abbrev admH : (p : Fin 3) → (pcfgs (F := F) p).Adm := fun p => (cfgs p).toPCfg_adm
/-- Each call's proof data at its entry contents. -/
def pdatsH : (p : Fin 3) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
abbrev 𝒱n : Variants := Variants.none
/-- No core owes another anything: no level is assigned. -/
abbrev L₀ : GSem nD τ sig → Finset Unit := fun _ => ∅
abbrev lv₀ : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment over the unscoped buffers from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W7`, the generator register at some state. -/
abbrev Tlast (c : Dev nD) : sProp 𝕄 := iprop(StableHlo.held (c : Thread nD τ) (Pipeline.ucRefs τ sig) (W7 m c) ∗ ∃ r, prngReg c r)

/-! ## The three calls as segments -/

set_option backward.isDefEq.respectTransparency.types false in
/-- The fused projection as a segment: entered with every unscoped buffer at `W1`, left with them at `W2`. Its arrays are
    split out of the unscoped buffers at entry and put back at their final contents at exit; the generator register rides
    through the body's invariant; nothing is owed and the kernel has no semaphore of its own. -/
def reg0 : Pipeline.RegionSeg (pcfgs (F := F)) admH (pdatsH m) () defs₀ 𝒱n L₀ lv₀ 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L₀ lv₀ 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment: entered with every unscoped buffer at `W3`, left with them at `W4`; the same shape. -/
def reg1 : Pipeline.RegionSeg (pcfgs (F := F)) admH (pdatsH m) () defs₀ 𝒱n L₀ lv₀ 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L₀ lv₀ 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection as a segment: entered with every unscoped buffer at `W5`, left with them at `W6`; the same shape. -/
def reg2 : Pipeline.RegionSeg (pcfgs (F := F)) admH (pdatsH m) () defs₀ 𝒱n L₀ lv₀ 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L₀ lv₀ 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segsH : List (Pipeline.Seg (pcfgs (F := F)) admH (pdatsH m) () defs₀ 𝒱n L₀ lv₀) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)) ]

/-- @main IS the run of the segments. -/
theorem main_run (c : Dev nD) : main (F := F) c = Pipeline.Seg.run (segsH m) := (main_chain c).trans (by chain_rfl)

set_option backward.isDefEq.respectTransparency.types false in
/-- THE RUN: from any memory with zero counters every weakly fair execution of @main terminates, nothing faulting, and every
    final memory holds every unscoped buffer of every core at the last boundary's contents `W7`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) admH (pdatsH m) () cellOf_inj emb₁ defs₀ 𝒱n L₀ lv₀ m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tlast m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ Rst c) : sProp 𝕄)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: the nine argument arrays end as launched — no host stretch writes one, no call has one as an array. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_untouched m c main_arg0 (by decide) (by decide) (by decide) (by decide) (by decide) (by decide) (by decide)),
     (h c _ (mem_uc main_arg1 (by decide))).trans (W7_untouched m c main_arg1 (by decide) (by decide) (by decide) (by decide) (by decide) (by decide) (by decide)),
     (h c _ (mem_uc main_arg2 (by decide))).trans (W7_untouched m c main_arg2 (by decide) (by decide) (by decide) (by decide) (by decide) (by decide) (by decide)),
     (h c _ (mem_uc main_arg3 (by decide))).trans (W7_untouched m c main_arg3 (by decide) (by decide) (by decide) (by decide) (by decide) (by decide) (by decide)),
     (h c _ (mem_uc main_arg4 (by decide))).trans (W7_untouched m c main_arg4 (by decide) (by decide) (by decide) (by decide) (by decide) (by decide) (by decide)),
     (h c _ (mem_uc main_arg5 (by decide))).trans (W7_untouched m c main_arg5 (by decide) (by decide) (by decide) (by decide) (by decide) (by decide) (by decide)),
     (h c _ (mem_uc main_arg6 (by decide))).trans (W7_untouched m c main_arg6 (by decide) (by decide) (by decide) (by decide) (by decide) (by decide) (by decide)),
     (h c _ (mem_uc main_arg7 (by decide))).trans (W7_untouched m c main_arg7 (by decide) (by decide) (by decide) (by decide) (by decide) (by decide) (by decide)),
     (h c _ (mem_uc main_arg8 (by decide))).trans (W7_untouched m c main_arg8 (by decide) (by decide) (by decide) (by decide) (by decide) (by decide) (by decide))⟩)
    (run_all m ρ)

end Cert.KernelIdeal.Hand

end
-- ==== Proof.Spec.lean ====
/-
  The specification: multi-head self-attention over x : [4, 2048, 1024] with 16 heads of 64 lanes, on the extended reals,
  written twice — as the three-call kernel arranges it and as the einsum / softmax reference does — in terms of the same
  few entry-wise functions.

  * `projAt`: one entry of "rows times a band of 1024 columns of a weight matrix, plus the bias row": Σ_k X[r,k]·W[k, off+j] + B[0, off+j].
  * `score`: the scaled dot product of query row q and key row k of head H over the head's 64 lanes.
  * `rowMax`, `wgt`, `wsum`: the row maximum of the scores, the softmax numerators e^(score − max) and their row total.
  * `attnAtK`: the kernel's order — the weighted sum of the values, then one division by the row total.
  * `attnAtR`: the reference's order — each weight divided by the row total, then the weighted sum.
  * `flat` / `unflat`: [4, 2048, n] ↔ [8192, n] by row number 2048·b + s; `wcat`, `bcat`: three matrices / vectors side by side;
    `brow`: a vector as a one-row matrix.
  * `kernelOut`, `refOut`: the two programs' results as compositions of these.
-/
import Idealize.ShloMosaic.PureOps.Ideal
import Idealize.ShloMosaic.Lib.ValueIdx

noncomputable section

open scoped BigOperators

namespace Cert.Spec

open Idealize.ShloMosaic Idealize.ShloMosaic.ValueIdx

abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-! ## A projection: rows times a band of columns, plus a bias row -/

/-- Column `off + j` of a matrix with `n` columns. -/
def col (n off : ℕ) (h : off + 1024 ≤ n) (j : Fin 1024) : Fin n := ⟨off + j.val, by have := j.isLt; omega⟩

/-- Σ_k X[r,k]·W[k, off+j] + B[0, off+j]. -/
def projAt (n off : ℕ) (h : off + 1024 ≤ n) (X : Arr2 8192 1024) (W : Arr2 1024 n) (B : Arr2 1 n) (r : Fin 8192) (j : Fin 1024) : EReal :=
  (∑ k : Fin 1024, X (ix2 r k) * W (ix2 k (col n off h j))) + B (ix2 (0 : Fin 1) (col n off h j))

/-- The [8192, 1024] array of those entries. -/
def proj (n off : ℕ) (h : off + 1024 ≤ n) (X : Arr2 8192 1024) (W : Arr2 1024 n) (B : Arr2 1 n) : Arr2 8192 1024 :=
  fun i => projAt n off h X W B (i 0) (i 1)

theorem proj_ix2 (n off : ℕ) (h : off + 1024 ≤ n) (X : Arr2 8192 1024) (W : Arr2 1024 n) (B : Arr2 1 n) (r : Fin 8192) (j : Fin 1024) :
    proj n off h X W B (ix2 r j) = projAt n off h X W B r j := rfl

/-- The reference's projection, batch entries kept apart: Σ_k x[b,s,k]·W[k,j] + bias[j]. -/
def proj3At (x : Arr3 4 2048 1024) (W : Arr2 1024 1024) (bias : Arr1 1024) (b : Fin 4) (s : Fin 2048) (j : Fin 1024) : EReal :=
  (∑ k : Fin 1024, x (ix3 b s k) * W (ix2 k j)) + bias (ix1 j)

def proj3 (x : Arr3 4 2048 1024) (W : Arr2 1024 1024) (bias : Arr1 1024) : Arr3 4 2048 1024 :=
  fun i => proj3At x W bias (i 0) (i 1) (i 2)

theorem proj3_ix3 (x : Arr3 4 2048 1024) (W : Arr2 1024 1024) (bias : Arr1 1024) (b : Fin 4) (s : Fin 2048) (j : Fin 1024) :
    proj3 x W bias (ix3 b s j) = proj3At x W bias b s j := rfl

/-! ## Attention on [4, 2048, 1024] arrays whose last axis is 16 heads of 64 lanes -/

/-- Lane `d` of head `H` as a column of the 1024. -/
def hcol (H : Fin 16) (d : Fin 64) : Fin 1024 := ⟨64 * H.val + d.val, by have := H.isLt; have := d.isLt; omega⟩
/-- The head a column belongs to, and its lane within the head. -/
def headOf (j : Fin 1024) : Fin 16 := ⟨j.val / 64, by have := j.isLt; omega⟩
def laneOf (j : Fin 1024) : Fin 64 := ⟨j.val % 64, Nat.mod_lt _ (by norm_num)⟩

theorem hcol_headOf_laneOf (j : Fin 1024) : hcol (headOf j) (laneOf j) = j :=
  Fin.ext (by simp only [hcol, headOf, laneOf]; exact Nat.div_add_mod j.val 64)

/-- The scaled dot product of query row `q` and key row `k` of head `H` in batch entry `b`. -/
def score (sc : EReal) (Q K : Arr3 4 2048 1024) (b : Fin 4) (H : Fin 16) (q k : Fin 2048) : EReal :=
  (∑ d : Fin 64, Q (ix3 b q (hcol H d)) * K (ix3 b k (hcol H d))) * sc

/-- The largest score of a query row. -/
def rowMax (sc : EReal) (Q K : Arr3 4 2048 1024) (b : Fin 4) (H : Fin 16) (q : Fin 2048) : EReal :=
  (Finset.univ : Finset (Fin 2048)).fold max ⊥ (fun k => score sc Q K b H q k)

/-- The softmax numerator e^(score − row maximum). -/
def wgt (sc : EReal) (Q K : Arr3 4 2048 1024) (b : Fin 4) (H : Fin 16) (q k : Fin 2048) : EReal :=
  Ideal.exp (score sc Q K b H q k - rowMax sc Q K b H q)

/-- The row total of the numerators. -/
def wsum (sc : EReal) (Q K : Arr3 4 2048 1024) (b : Fin 4) (H : Fin 16) (q : Fin 2048) : EReal :=
  ∑ k : Fin 2048, wgt sc Q K b H q k

/-- The kernel's order: the weighted sum of the values, then one division by the row total. -/
def attnAtK (sc : EReal) (Q K V : Arr3 4 2048 1024) (b : Fin 4) (q : Fin 2048) (H : Fin 16) (d : Fin 64) : EReal :=
  Ideal.div (∑ k : Fin 2048, wgt sc Q K b H q k * V (ix3 b k (hcol H d))) (wsum sc Q K b H q)

/-- The reference's order: each weight divided by the row total, then the weighted sum. -/
def attnAtR (sc : EReal) (Q K V : Arr3 4 2048 1024) (b : Fin 4) (q : Fin 2048) (H : Fin 16) (d : Fin 64) : EReal :=
  ∑ k : Fin 2048, Ideal.div (wgt sc Q K b H q k) (wsum sc Q K b H q) * V (ix3 b k (hcol H d))

def attnK (sc : EReal) (Q K V : Arr3 4 2048 1024) : Arr3 4 2048 1024 :=
  fun i => attnAtK sc Q K V (i 0) (i 1) (headOf (i 2)) (laneOf (i 2))

def attnR (sc : EReal) (Q K V : Arr3 4 2048 1024) : Arr3 4 2048 1024 :=
  fun i => attnAtR sc Q K V (i 0) (i 1) (headOf (i 2)) (laneOf (i 2))

theorem attnK_ix3 (sc : EReal) (Q K V : Arr3 4 2048 1024) (b : Fin 4) (q : Fin 2048) (j : Fin 1024) :
    attnK sc Q K V (ix3 b q j) = attnAtK sc Q K V b q (headOf j) (laneOf j) := rfl
theorem attnR_ix3 (sc : EReal) (Q K V : Arr3 4 2048 1024) (b : Fin 4) (q : Fin 2048) (j : Fin 1024) :
    attnR sc Q K V (ix3 b q j) = attnAtR sc Q K V b q (headOf j) (laneOf j) := rfl

/-! ## Regrouping rows, joining columns -/

/-- Row `2048·b + s` of the flattened array. -/
def rowOf (b : Fin 4) (s : Fin 2048) : Fin 8192 := ⟨2048 * b.val + s.val, by have := b.isLt; have := s.isLt; omega⟩
def batchOf (r : Fin 8192) : Fin 4 := ⟨r.val / 2048, by have := r.isLt; omega⟩
def seqOf (r : Fin 8192) : Fin 2048 := ⟨r.val % 2048, Nat.mod_lt _ (by norm_num)⟩

theorem rowOf_batchOf_seqOf (r : Fin 8192) : rowOf (batchOf r) (seqOf r) = r :=
  Fin.ext (by simp only [rowOf, batchOf, seqOf]; exact Nat.div_add_mod r.val 2048)
theorem batchOf_rowOf (b : Fin 4) (s : Fin 2048) : batchOf (rowOf b s) = b :=
  Fin.ext (by simp only [rowOf, batchOf]; have := s.isLt; omega)
theorem seqOf_rowOf (b : Fin 4) (s : Fin 2048) : seqOf (rowOf b s) = s :=
  Fin.ext (by simp only [rowOf, seqOf]; have := s.isLt; omega)

/-- [4, 2048, 1024] as [8192, 1024]. -/
def flat (A : Arr3 4 2048 1024) : Arr2 8192 1024 := fun i => A (ix3 (batchOf (i 0)) (seqOf (i 0)) (i 1))
/-- [8192, 1024] as [4, 2048, 1024]. -/
def unflat (A : Arr2 8192 1024) : Arr3 4 2048 1024 := fun i => A (ix2 (rowOf (i 0) (i 1)) (i 2))

theorem flat_ix2 (A : Arr3 4 2048 1024) (r : Fin 8192) (j : Fin 1024) : flat A (ix2 r j) = A (ix3 (batchOf r) (seqOf r) j) := rfl
theorem unflat_ix3 (A : Arr2 8192 1024) (b : Fin 4) (s : Fin 2048) (j : Fin 1024) : unflat A (ix3 b s j) = A (ix2 (rowOf b s) j) := rfl

/-- Three [1024, 1024] matrices side by side. -/
def wcat (Wq Wk Wv : Arr2 1024 1024) : Arr2 1024 3072 := fun i =>
  if h1 : (i 1).val < 1024 then Wq (ix2 (i 0) ⟨(i 1).val, h1⟩)
  else if h2 : (i 1).val < 2048 then Wk (ix2 (i 0) ⟨(i 1).val - 1024, by omega⟩)
  else Wv (ix2 (i 0) ⟨(i 1).val - 2048, by have h3 : (i 1).val < 3072 := (i 1).isLt; omega⟩)

/-- Three vectors of 1024 end to end, as one row. -/
def bcat (bq bk bv : Arr1 1024) : Arr2 1 3072 := fun i =>
  if h1 : (i 1).val < 1024 then bq (ix1 ⟨(i 1).val, h1⟩)
  else if h2 : (i 1).val < 2048 then bk (ix1 ⟨(i 1).val - 1024, by omega⟩)
  else bv (ix1 ⟨(i 1).val - 2048, by have h3 : (i 1).val < 3072 := (i 1).isLt; omega⟩)

/-- A vector as a one-row matrix. -/
def brow (b : Arr1 1024) : Arr2 1 1024 := fun i => b (ix1 (i 1))

/-! ## The two programs -/

/-- The kernel program's result: the fused projection of the flattened input against the joined weights, its three column
    bands regrouped by batch entry, attention in the kernel's order, the output projection of the flattened heads. -/
def kernelOut (sc : EReal) (x : Arr3 4 2048 1024) (Wq : Arr2 1024 1024) (bq : Arr1 1024) (Wk : Arr2 1024 1024) (bk : Arr1 1024)
    (Wv : Arr2 1024 1024) (bv : Arr1 1024) (Wo : Arr2 1024 1024) (bo : Arr1 1024) : Arr3 4 2048 1024 :=
  unflat (proj 1024 0 (by norm_num)
    (flat (attnK sc
      (unflat (proj 3072 0 (by norm_num) (flat x) (wcat Wq Wk Wv) (bcat bq bk bv)))
      (unflat (proj 3072 1024 (by norm_num) (flat x) (wcat Wq Wk Wv) (bcat bq bk bv)))
      (unflat (proj 3072 2048 (by norm_num) (flat x) (wcat Wq Wk Wv) (bcat bq bk bv)))))
    Wo (brow bo))

/-- The reference's result: three projections, attention in the reference's order, the output projection. -/
def refOut (sc : EReal) (x : Arr3 4 2048 1024) (Wq : Arr2 1024 1024) (bq : Arr1 1024) (Wk : Arr2 1024 1024) (bk : Arr1 1024)
    (Wv : Arr2 1024 1024) (bv : Arr1 1024) (Wo : Arr2 1024 1024) (bo : Arr1 1024) : Arr3 4 2048 1024 :=
  proj3 (attnR sc (proj3 x Wq bq) (proj3 x Wk bk) (proj3 x Wv bv)) Wo bo

/-- The kernel's scale, the f32 word of 0.125, and the reference's, 1 / √64 as it computes it. -/
def scK : EReal := Ideal.ofBits .f32 0x3E000000#32
def scR : EReal := Ideal.div (Ideal.ofBits .f32 0x3F800000#32) (Ideal.sqrt (Ideal.ofBits .f32 0x42800000#32))

end Cert.Spec

end
-- ==== Proof.IdealHost.lean ====
/-
  The host operations of the kernel program, read as the specification's regroupings.

  Between its three calls the kernel program only re-lays data: it joins the three weight matrices side by side and the three
  bias vectors end to end, recasts [4, 2048, 1024] arrays as [8192, 1024] ones and back (row 2048·b + s is row s of batch
  entry b: the row-major positions agree), turns a vector into a one-row matrix, and narrows f32 to bf16, which on the
  extended reals changes nothing. Each such buffer, as a call finds it, is the matching function of the specification
  applied to what the previous boundary held.
-/
import proofs.«135862_j34411277975788_2_alg».proof.Proof.IdealRun
import proofs.«135862_j34411277975788_2_alg».proof.Proof.Spec
import Idealize.ShloMosaic.Lib.ValueLayout
import Idealize.ShloMosaic.Lib.Pipeline.Value
import Idealize.ShloMosaic.Lib.ValueIdx
import Idealize.ShloMosaic.Lib.StableHlo.Run

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen Cert.Spec

/-! ## The re-layings, on arrays -/

/-- [4, 2048, 1024] recast as [8192, 1024]: row r holds row r mod 2048 of batch entry r / 2048. -/
theorem cast_flat (A : Arr3 4 2048 1024) (h : (⟨3, ![4, 2048, 1024]⟩ : Shape).ShapeCasts ⟨2, ![8192, 1024]⟩) :
    shapeCast ⟨2, ![8192, 1024]⟩ A h = flat A := by
  funext i
  obtain ⟨r, j, rfl⟩ : ∃ (r : Fin 8192) (j : Fin 1024), i = ix2 r j := ⟨i 0, i 1, eq_ix2 i⟩
  rw [flat_ix2]
  refine shapeCast_apply A h _ _ ?_
  rw [Shape.rowMajor_val_three, Shape.rowMajor_val_two]
  show ((r.val / 2048) * 2048 + r.val % 2048) * 1024 + j.val = r.val * 1024 + j.val
  rw [Nat.div_add_mod' r.val 2048]

/-- [8192, 1024] recast as [4, 2048, 1024]: row s of batch entry b is row 2048·b + s. -/
theorem cast_unflat (A : Arr2 8192 1024) (h : (⟨2, ![8192, 1024]⟩ : Shape).ShapeCasts ⟨3, ![4, 2048, 1024]⟩) :
    shapeCast ⟨3, ![4, 2048, 1024]⟩ A h = unflat A := by
  funext i
  obtain ⟨b, s, j, rfl⟩ : ∃ (b : Fin 4) (s : Fin 2048) (j : Fin 1024), i = ix3 b s j := ⟨i 0, i 1, i 2, eq_ix3 i⟩
  rw [unflat_ix3]
  refine shapeCast_apply A h _ _ ?_
  rw [Shape.rowMajor_val_two, Shape.rowMajor_val_three]
  show (2048 * b.val + s.val) * 1024 + j.val = (b.val * 2048 + s.val) * 1024 + j.val
  rw [Nat.mul_comm 2048 b.val]

/-- A vector of 1024 recast as a one-row matrix. -/
theorem cast_brow (v : Arr1 1024) (h : (⟨1, ![1024]⟩ : Shape).ShapeCasts ⟨2, ![1, 1024]⟩) :
    shapeCast ⟨2, ![1, 1024]⟩ v h = brow v := by
  funext i
  obtain ⟨u, j, rfl⟩ : ∃ (u : Fin 1) (j : Fin 1024), i = ix2 u j := ⟨i 0, i 1, eq_ix2 i⟩
  exact shapeCast_a_1a_apply v h u j

/-- Three [1024, 1024] matrices joined along the columns: column j comes from matrix j / 1024, at its column j mod 1024. -/
theorem cat_wcat (Wq Wk Wv : Arr2 1024 1024)
    (h : Shape.Concatenates (([⟨⟨2, ![1024, 1024]⟩, Wq⟩, ⟨⟨2, ![1024, 1024]⟩, Wk⟩, ⟨⟨2, ![1024, 1024]⟩, Wv⟩] : List ((s : Shape) × (s.Idx → EReal))).map (·.1))
      ⟨2, ![1024, 3072]⟩ 1) :
    concatenate ⟨2, ![1024, 3072]⟩ 1 [⟨⟨2, ![1024, 1024]⟩, Wq⟩, ⟨⟨2, ![1024, 1024]⟩, Wk⟩, ⟨⟨2, ![1024, 1024]⟩, Wv⟩] h = wcat Wq Wk Wv := by
  funext i
  obtain ⟨k, j, rfl⟩ : ∃ (k : Fin 1024) (j : Fin 3072), i = ix2 k j := ⟨i 0, i 1, eq_ix2 i⟩
  have hj : j.val < 3072 := j.isLt
  by_cases h1 : j.val < 1024
  · rw [show wcat Wq Wk Wv (ix2 k j) = Wq (ix2 k ⟨j.val, h1⟩) from dif_pos h1]
    exact concatenate_apply_piece (1 : Fin 2) _ h (ix2 k j) 0 (by simp) _ Wq rfl rfl 0 rfl (ix2 k ⟨j.val, h1⟩)
      (fun b hb => by match b with | ⟨0, _⟩ => rfl | ⟨1, _⟩ => exact absurd rfl hb) (by show 0 + j.val = j.val; omega)
  · by_cases h2 : j.val < 2048
    · rw [show wcat Wq Wk Wv (ix2 k j) = Wk (ix2 k ⟨j.val - 1024, by omega⟩) from (dif_neg h1).trans (dif_pos h2)]
      exact concatenate_apply_piece (1 : Fin 2) _ h (ix2 k j) 1 (by simp) _ Wk rfl rfl 1024 rfl (ix2 k ⟨j.val - 1024, by omega⟩)
        (fun b hb => by match b with | ⟨0, _⟩ => rfl | ⟨1, _⟩ => exact absurd rfl hb) (by show 1024 + (j.val - 1024) = j.val; omega)
    · rw [show wcat Wq Wk Wv (ix2 k j) = Wv (ix2 k ⟨j.val - 2048, by omega⟩) from (dif_neg h1).trans (dif_neg h2)]
      exact concatenate_apply_piece (1 : Fin 2) _ h (ix2 k j) 2 (by simp) _ Wv rfl rfl 2048 rfl (ix2 k ⟨j.val - 2048, by omega⟩)
        (fun b hb => by match b with | ⟨0, _⟩ => rfl | ⟨1, _⟩ => exact absurd rfl hb) (by show 2048 + (j.val - 2048) = j.val; omega)

/-- Three vectors of 1024 joined end to end and recast as one row. -/
theorem cat_bcat (bq bk bv : Arr1 1024)
    (h : Shape.Concatenates (([⟨⟨1, ![1024]⟩, bq⟩, ⟨⟨1, ![1024]⟩, bk⟩, ⟨⟨1, ![1024]⟩, bv⟩] : List ((s : Shape) × (s.Idx → EReal))).map (·.1))
      ⟨1, ![3072]⟩ 0)
    (hc : (⟨1, ![3072]⟩ : Shape).ShapeCasts ⟨2, ![1, 3072]⟩) :
    shapeCast ⟨2, ![1, 3072]⟩ (concatenate ⟨1, ![3072]⟩ 0 [⟨⟨1, ![1024]⟩, bq⟩, ⟨⟨1, ![1024]⟩, bk⟩, ⟨⟨1, ![1024]⟩, bv⟩] h) hc = bcat bq bk bv := by
  funext i
  obtain ⟨u, j, rfl⟩ : ∃ (u : Fin 1) (j : Fin 3072), i = ix2 u j := ⟨i 0, i 1, eq_ix2 i⟩
  rw [shapeCast_a_1a_apply _ hc u j]
  have hj : j.val < 3072 := j.isLt
  by_cases h1 : j.val < 1024
  · rw [show bcat bq bk bv (ix2 u j) = bq (ix1 ⟨j.val, h1⟩) from dif_pos h1]
    exact concatenate_apply_piece (0 : Fin 1) _ h (ix1 j) 0 (by simp) _ bq rfl rfl 0 rfl (ix1 ⟨j.val, h1⟩)
      (fun b hb => by match b with | ⟨0, _⟩ => exact absurd rfl hb) (by show 0 + j.val = j.val; omega)
  · by_cases h2 : j.val < 2048
    · rw [show bcat bq bk bv (ix2 u j) = bk (ix1 ⟨j.val - 1024, by omega⟩) from (dif_neg h1).trans (dif_pos h2)]
      exact concatenate_apply_piece (0 : Fin 1) _ h (ix1 j) 1 (by simp) _ bk rfl rfl 1024 rfl (ix1 ⟨j.val - 1024, by omega⟩)
        (fun b hb => by match b with | ⟨0, _⟩ => exact absurd rfl hb) (by show 1024 + (j.val - 1024) = j.val; omega)
    · rw [show bcat bq bk bv (ix2 u j) = bv (ix1 ⟨j.val - 2048, by omega⟩) from (dif_neg h1).trans (dif_neg h2)]
      exact concatenate_apply_piece (0 : Fin 1) _ h (ix1 j) 2 (by simp) _ bv rfl rfl 2048 rfl (ix1 ⟨j.val - 2048, by omega⟩)
        (fun b hb => by match b with | ⟨0, _⟩ => exact absurd rfl hb) (by show 2048 + (j.val - 2048) = j.val; omega)

/-! ## What each call finds in its operand arrays -/

variable (m : (ℓ : Loc nD τ sig) → Buf (Elt Ideal) ℓ)

/-- The fused projection's left operand: the flattened input. -/
theorem entry0_rows (c : Dev nD) : U1 m c main_v4 = flat (m ((c : Thread nD τ).loc main_arg0)) := by
  have e : U1 m c main_v4 = shapeCast S8192x1024 (m ((c : Thread nD τ).loc main_arg0)) shapeCasts_S4x2048x1024_S8192x1024 := by
    show StableHlo.after hostOps0 (W0 m c) (Proc.devRef .tc main_v4) = _
    after_results; rfl
  rw [e]; exact cast_flat _ _

/-- Its weights: the three weight matrices side by side (narrowed to bf16, which changes nothing here). -/
theorem entry0_wts (c : Dev nD) : U1 m c main_v1
    = wcat (m ((c : Thread nD τ).loc main_arg1)) (m ((c : Thread nD τ).loc main_arg3)) (m ((c : Thread nD τ).loc main_arg5)) := by
  have e : U1 m c main_v1 = concatenate S1024x3072 1 [⟨S1024x1024, m ((c : Thread nD τ).loc main_arg1)⟩, ⟨S1024x1024, m ((c : Thread nD τ).loc main_arg3)⟩,
      ⟨S1024x1024, m ((c : Thread nD τ).loc main_arg5)⟩] concatenates_S1024x1024_S1024x1024_S1024x1024_S1024x3072_d1 := by
    show StableHlo.after hostOps0 (W0 m c) (Proc.devRef .tc main_v1) = _
    after_results; rfl
  rw [e]; exact cat_wcat _ _ _ _

/-- Its bias row: the three bias vectors end to end. -/
theorem entry0_bias (c : Dev nD) : U1 m c main_v3
    = bcat (m ((c : Thread nD τ).loc main_arg2)) (m ((c : Thread nD τ).loc main_arg4)) (m ((c : Thread nD τ).loc main_arg6)) := by
  have e : U1 m c main_v3 = shapeCast S1x3072 (concatenate S3072 0 [⟨S1024, m ((c : Thread nD τ).loc main_arg2)⟩, ⟨S1024, m ((c : Thread nD τ).loc main_arg4)⟩,
      ⟨S1024, m ((c : Thread nD τ).loc main_arg6)⟩] concatenates_S1024_S1024_S1024_S3072_d0) shapeCasts_S3072_S1x3072 := by
    show StableHlo.after hostOps0 (W0 m c) (Proc.devRef .tc main_v3) = _
    after_results; rfl
  rw [e]; exact cat_bcat _ _ _ _ _

/-- The attention call's queries, keys and values: the fused projection's three results regrouped by batch entry. -/
theorem entry1_q (c : Dev nD) : U3 m c main_v6 = unflat (U2 m c main_v5_0) := by
  have e : U3 m c main_v6 = shapeCast S4x2048x1024 (U2 m c main_v5_0) shapeCasts_S8192x1024_S4x2048x1024 := by
    show StableHlo.after hostOps1 (W2 m c) (Proc.devRef .tc main_v6) = _
    after_results; rfl
  rw [e]; exact cast_unflat _ _
theorem entry1_k (c : Dev nD) : U3 m c main_v7 = unflat (U2 m c main_v5_1) := by
  have e : U3 m c main_v7 = shapeCast S4x2048x1024 (U2 m c main_v5_1) shapeCasts_S8192x1024_S4x2048x1024 := by
    show StableHlo.after hostOps1 (W2 m c) (Proc.devRef .tc main_v7) = _
    after_results; rfl
  rw [e]; exact cast_unflat _ _
theorem entry1_v (c : Dev nD) : U3 m c main_v8 = unflat (U2 m c main_v5_2) := by
  have e : U3 m c main_v8 = shapeCast S4x2048x1024 (U2 m c main_v5_2) shapeCasts_S8192x1024_S4x2048x1024 := by
    show StableHlo.after hostOps1 (W2 m c) (Proc.devRef .tc main_v8) = _
    after_results; rfl
  rw [e]; exact cast_unflat _ _

/-- The output projection's left operand: the heads flattened. -/
theorem entry2_rows (c : Dev nD) : U5 m c main_v10 = flat (U4 m c main_v9) := by
  have e : U5 m c main_v10 = shapeCast S8192x1024 (U4 m c main_v9) shapeCasts_S4x2048x1024_S8192x1024 := by
    show StableHlo.after hostOps2 (W4 m c) (Proc.devRef .tc main_v10) = _
    after_results; rfl
  rw [e]; exact cast_flat _ _

/-- An argument array is still as launched when the output projection is entered. -/
theorem W4_arg (c : Dev nD) (b : Ref sig .tc) (h0 : b ∉ hostOps0_W) (h1 : b ∉ hostOps1_W)
    (a0 : ∀ w, Pipeline.arrRef spec0 w ≠ b) (a1 : ∀ w, Pipeline.arrRef spec1 w ≠ b) :
    W4 m c (Proc.devRef .tc b) = m ((c : Thread nD τ).loc b) :=
  calc W4 m c (Proc.devRef .tc b)
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

/-- Its weights: the output weight matrix. -/
theorem entry2_wts (c : Dev nD) : U5 m c main_v11 = m ((c : Thread nD τ).loc main_arg7) := by
  have e : U5 m c main_v11 = W4 m c (Proc.devRef .tc main_arg7) := by
    show StableHlo.after hostOps2 (W4 m c) (Proc.devRef .tc main_v11) = _
    after_results; rfl
  rw [e]; exact W4_arg m c main_arg7 (by decide) (by decide) (by decide) (by decide)

/-- Its bias row: the output bias as one row. -/
theorem entry2_bias (c : Dev nD) : U5 m c main_v12 = brow (m ((c : Thread nD τ).loc main_arg8)) := by
  have e : U5 m c main_v12 = shapeCast S1x1024 (W4 m c (Proc.devRef .tc main_arg8)) shapeCasts_S1024_S1x1024 := by
    show StableHlo.after hostOps2 (W4 m c) (Proc.devRef .tc main_v12) = _
    after_results; rfl
  rw [e, W4_arg m c main_arg8 (by decide) (by decide) (by decide) (by decide)]; exact cast_brow _ _

/-- What @main returns: the output projection's result regrouped by batch entry. -/
theorem result_eq (c : Dev nD) : W7 m c (Proc.devRef .tc main_v14) = unflat (U6 m c main_v13) := by
  have e : W7 m c (Proc.devRef .tc main_v14) = shapeCast S4x2048x1024 (U6 m c main_v13) shapeCasts_S8192x1024_S4x2048x1024 := by
    show StableHlo.after hostOps3 (W6 m c) (Proc.devRef .tc main_v14) = _
    after_results; rfl
  rw [e]; exact cast_unflat _ _

end Cert.KernelIdeal.Hand

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.IdealR0Value.lean ====
import proofs.«135862_j34411277975788_2_alg».proof.Proof.IdealR0Defs
import proofs.«135862_j34411277975788_2_alg».proof.Proof.Spec
import proofs.«135862_j34411277975788_2_alg».proof.Proof.LibRowColDot
import proofs.«135862_j34411277975788_2_alg».proof.Proof.LibRowBroadcast
import Idealize.ShloMosaic.Lib.Pipeline.Value

/-!
# The fused input projection's three result arrays, on the extended reals

The first call walks 16 row blocks. At block `t` the body multiplies rows `512 t … 512 t + 511` of the flattened input by the
whole 1024 × 3072 matrix of the three weight matrices side by side, adds the 1 × 3072 row of the three biases to every row,
and stores the column bands `[0, 1024)`, `[1024, 2048)`, `[2048, 3072)` of that 512 × 3072 product into the query, key and
value windows, which the pipeline writes back to the same rows of the three results. Entry `(r, j)` of the result with column
offset `off` is therefore `Σ_k X[r,k] · W[k, off + j] + B[0, off + j]`, the specification's `proj 3072 off`.

Order of the file: the two kept coordinates of the matrix product's dimension numbers; the 512 × 3072 product plus bias at an
entry (a matrix product into the zero accumulator is a sum over the contracted axis; a one-row array repeated along the rows
reads its row); each band at an entry (a unit-stride slice reads its operand shifted by the offset, and a change of float
format is the identity on the extended reals — stated over an arbitrary 512 × 3072 array, then read at the product); where
each window's block sits in its array (a block's coordinate is block index × block size + the coordinate inside the block);
what grid point `t` writes back to each result; every row `r` lies in block `r / 512`; the three whole arrays.
No finiteness is used: both sides are the same sum.
-/

noncomputable section
namespace Cert.KernelIdeal.Hand
open Idealize.ShloMosaic Idealize.ShloMosaic.TcCoe Idealize.SL.Sem
open Idealize.ShloMosaic.Pipeline (Dat)
open Idealize.ShloMosaic.ValueIdx
open Cert.KernelIdeal Cert.KernelIdeal.Gen

/-! ## The 512 × 3072 product plus bias at an entry -/

/-- The left operand's kept coordinate is the output's row. -/
theorem dot0_l0 (j : S512x3072.Idx) (q : dot_S512x1024_S1024x3072_S512x3072_1_0_0_1_n_n.contr.Idx) :
    (dot_S512x1024_S1024x3072_S512x3072_1_0_0_1_n_n.lhsIdx j q 0).val = (j 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

/-- The right operand's kept coordinate is the output's column. -/
theorem dot0_r1 (j : S512x3072.Idx) (q : dot_S512x1024_S1024x3072_S512x3072_1_0_0_1_n_n.contr.Idx) :
    (dot_S512x1024_S1024x3072_S512x3072_1_0_0_1_n_n.rhsIdx j q 1).val = (j 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The 512 × 3072 product plus bias at entry (p, j): row p of the input block against column j of the joined weights, plus
    the joined bias at j. The change of float format on the way into the product is the identity on the extended reals. -/
theorem pay0_at (x0 : Vec Ideal S512x1024 .f32) (x1 : Vec Ideal S1024x3072 .bf16) (x2 : Vec Ideal S1x3072 .f32)
    (p : Fin 512) (j : Fin 3072) :
    k0_pay1 (F := Ideal) x0 x1 x2 (ix2 p j)
      = (∑ k : Fin 1024, x0 (ix2 p k) * x1 (ix2 k j)) + x2 (ix2 (0 : Fin 1) j) := by
  unfold k0_pay1
  simp only [shapeCast_self]
  refine (addf_apply _ _ _).trans ?_
  refine congrArg₂ (· + ·) ?_ ?_
  · exact Cert.RowColDot.matmul_rowcol dot_S512x1024_S1024x3072_S512x3072_1_0_0_1_n_n rfl rfl rfl rfl dot0_l0 dot0_r1 none
      (truncf .bf16 x0 bitsLt_bf16_f32) x1 (ix2 p j)
  · exact Cert.RowBroadcast.row_broadcast_apply x2 broadcasts_S1x3072_S512x3072 p j

/-! ## The three column bands at an entry -/

/-- The query band is the slice at column offset 0 of the product plus bias, its float format changed. -/
theorem pay0_q_def (x0 : Vec Ideal S512x1024 .f32) (x1 : Vec Ideal S1024x3072 .bf16) (x2 : Vec Ideal S1x3072 .f32) :
    k0_pay2 (F := Ideal) x0 x1 x2
      = truncf .bf16 (extractStridedSlice S512x1024 ![0, 0] (k0_pay1 x0 x1 x2) slices_S512x3072_o0_0_S512x1024) bitsLt_bf16_f32 := rfl

/-- The key band: column offset 1024. -/
theorem pay0_k_def (x0 : Vec Ideal S512x1024 .f32) (x1 : Vec Ideal S1024x3072 .bf16) (x2 : Vec Ideal S1x3072 .f32) :
    k0_pay3 (F := Ideal) x0 x1 x2
      = truncf .bf16 (extractStridedSlice S512x1024 ![0, 1024] (k0_pay1 x0 x1 x2) slices_S512x3072_o0_1024_S512x1024) bitsLt_bf16_f32 := rfl

/-- The value band: column offset 2048. -/
theorem pay0_v_def (x0 : Vec Ideal S512x1024 .f32) (x1 : Vec Ideal S1024x3072 .bf16) (x2 : Vec Ideal S1x3072 .f32) :
    k0_pay4 (F := Ideal) x0 x1 x2
      = truncf .bf16 (extractStridedSlice S512x1024 ![0, 2048] (k0_pay1 x0 x1 x2) slices_S512x3072_o0_2048_S512x1024) bitsLt_bf16_f32 := rfl

/-- The band at column offset 0 of any 512 × 3072 array, at entry (p, q): the array at column `0 + q`. -/
theorem band0_q_at (y : FVec Ideal S512x3072 .f32) (p : Fin 512) (q : Fin 1024) (h : 0 + 1024 ≤ 3072) :
    (truncf .bf16 (extractStridedSlice S512x1024 ![0, 0] y slices_S512x3072_o0_0_S512x1024) bitsLt_bf16_f32 : FVec Ideal S512x1024 .bf16) (ix2 p q)
      = y (ix2 p (Cert.Spec.col 3072 0 h q)) := by
  refine (truncf_apply (s := S512x1024) (φ := .f32) (ψ := .bf16)
    (extractStridedSlice S512x1024 ![0, 0] y slices_S512x3072_o0_0_S512x1024) bitsLt_bf16_f32 (ix2 p q)).trans ?_
  refine extractStridedSlice_apply ![0, 0] y slices_S512x3072_o0_0_S512x1024 (ix2 p q)
    (ix2 p (Cert.Spec.col 3072 0 h q)) (fun a => ?_)
  match a with
  | ⟨0, _⟩ => show p.val = 0 + p.val; omega
  | ⟨1, _⟩ => show 0 + q.val = 0 + q.val; rfl

/-- The band at column offset 1024: the array at column `1024 + q`. -/
theorem band0_k_at (y : FVec Ideal S512x3072 .f32) (p : Fin 512) (q : Fin 1024) (h : 1024 + 1024 ≤ 3072) :
    (truncf .bf16 (extractStridedSlice S512x1024 ![0, 1024] y slices_S512x3072_o0_1024_S512x1024) bitsLt_bf16_f32 : FVec Ideal S512x1024 .bf16) (ix2 p q)
      = y (ix2 p (Cert.Spec.col 3072 1024 h q)) := by
  refine (truncf_apply (s := S512x1024) (φ := .f32) (ψ := .bf16)
    (extractStridedSlice S512x1024 ![0, 1024] y slices_S512x3072_o0_1024_S512x1024) bitsLt_bf16_f32 (ix2 p q)).trans ?_
  refine extractStridedSlice_apply ![0, 1024] y slices_S512x3072_o0_1024_S512x1024 (ix2 p q)
    (ix2 p (Cert.Spec.col 3072 1024 h q)) (fun a => ?_)
  match a with
  | ⟨0, _⟩ => show p.val = 0 + p.val; omega
  | ⟨1, _⟩ => show 1024 + q.val = 1024 + q.val; rfl

/-- The band at column offset 2048: the array at column `2048 + q`. -/
theorem band0_v_at (y : FVec Ideal S512x3072 .f32) (p : Fin 512) (q : Fin 1024) (h : 2048 + 1024 ≤ 3072) :
    (truncf .bf16 (extractStridedSlice S512x1024 ![0, 2048] y slices_S512x3072_o0_2048_S512x1024) bitsLt_bf16_f32 : FVec Ideal S512x1024 .bf16) (ix2 p q)
      = y (ix2 p (Cert.Spec.col 3072 2048 h q)) := by
  refine (truncf_apply (s := S512x1024) (φ := .f32) (ψ := .bf16)
    (extractStridedSlice S512x1024 ![0, 2048] y slices_S512x3072_o0_2048_S512x1024) bitsLt_bf16_f32 (ix2 p q)).trans ?_
  refine extractStridedSlice_apply ![0, 2048] y slices_S512x3072_o0_2048_S512x1024 (ix2 p q)
    (ix2 p (Cert.Spec.col 3072 2048 h q)) (fun a => ?_)
  match a with
  | ⟨0, _⟩ => show p.val = 0 + p.val; omega
  | ⟨1, _⟩ => show 2048 + q.val = 2048 + q.val; rfl

/-- The query band at entry (p, q): column `0 + q` of the product plus bias. -/
theorem pay0_q_at (x0 : Vec Ideal S512x1024 .f32) (x1 : Vec Ideal S1024x3072 .bf16) (x2 : Vec Ideal S1x3072 .f32)
    (p : Fin 512) (q : Fin 1024) (h : 0 + 1024 ≤ 3072) :
    k0_pay2 (F := Ideal) x0 x1 x2 (ix2 p q)
      = (∑ k : Fin 1024, x0 (ix2 p k) * x1 (ix2 k (Cert.Spec.col 3072 0 h q))) + x2 (ix2 (0 : Fin 1) (Cert.Spec.col 3072 0 h q)) := by
  rw [pay0_q_def]
  exact (band0_q_at (k0_pay1 x0 x1 x2) p q h).trans (pay0_at x0 x1 x2 p (Cert.Spec.col 3072 0 h q))

/-- The key band at entry (p, q): column `1024 + q` of the product plus bias. -/
theorem pay0_k_at (x0 : Vec Ideal S512x1024 .f32) (x1 : Vec Ideal S1024x3072 .bf16) (x2 : Vec Ideal S1x3072 .f32)
    (p : Fin 512) (q : Fin 1024) (h : 1024 + 1024 ≤ 3072) :
    k0_pay3 (F := Ideal) x0 x1 x2 (ix2 p q)
      = (∑ k : Fin 1024, x0 (ix2 p k) * x1 (ix2 k (Cert.Spec.col 3072 1024 h q))) + x2 (ix2 (0 : Fin 1) (Cert.Spec.col 3072 1024 h q)) := by
  rw [pay0_k_def]
  exact (band0_k_at (k0_pay1 x0 x1 x2) p q h).trans (pay0_at x0 x1 x2 p (Cert.Spec.col 3072 1024 h q))

/-- The value band at entry (p, q): column `2048 + q` of the product plus bias. -/
theorem pay0_v_at (x0 : Vec Ideal S512x1024 .f32) (x1 : Vec Ideal S1024x3072 .bf16) (x2 : Vec Ideal S1x3072 .f32)
    (p : Fin 512) (q : Fin 1024) (h : 2048 + 1024 ≤ 3072) :
    k0_pay4 (F := Ideal) x0 x1 x2 (ix2 p q)
      = (∑ k : Fin 1024, x0 (ix2 p k) * x1 (ix2 k (Cert.Spec.col 3072 2048 h q))) + x2 (ix2 (0 : Fin 1) (Cert.Spec.col 3072 2048 h q)) := by
  rw [pay0_v_def]
  exact (band0_v_at (k0_pay1 x0 x1 x2) p q h).trans (pay0_at x0 x1 x2 p (Cert.Spec.col 3072 2048 h q))

/-! ## Where each window's block sits in its array -/

section
variable (V : (c : Dev nD) → (b : Ref sig .tc) → Buf (Elt Ideal) ((c : Thread nD τ).loc b))

theorem zeros0 : (![0, 0] : Fin 2 → Nat) = fun _ => 0 :=
  funext fun a => match a with | ⟨0, _⟩ => rfl | ⟨1, _⟩ => rfl

/-- The printed index maps over the grid: the input rows' and the three results' block index is the grid point on the row
    axis, and every other block index is zero. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Entry (p, k) of the input rows' block at grid point t is entry (512 t + p, k) of the flattened input. -/
theorem iblk0_0_at (c : Dev nD) (t : Fin cfg0.N) (p : Fin 512) (k : Fin 1024) (r : Fin 8192) (hr : r.val = 512 * t.val + p.val) :
    (iblk0 V c 0 t : Vec Ideal S512x1024 .f32) (ix2 p k) = (V c main_v4 : S8192x1024.Idx → EReal) (ix2 r k) := by
  obtain ⟨e0, e1, -⟩ := index0 t
  unfold iblk0
  rw [View.read_apply]
  show V c main_v4 _ = V c main_v4 _
  refine congrArg (V c main_v4) ?_
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The joined weights' block at every grid point is the whole 1024 × 3072 matrix. -/
theorem iblk0_1_at (c : Dev nD) (t : Fin cfg0.N) (k : Fin 1024) (j : Fin 3072) :
    (iblk0 V c 1 t : Vec Ideal S1024x3072 .bf16) (ix2 k j) = (V c main_v1 : S1024x3072.Idx → EReal) (ix2 k j) := by
  obtain ⟨-, -, e2, e3, -⟩ := index0 t
  unfold iblk0
  rw [View.read_apply]
  show V c main_v1 _ = V c main_v1 _
  refine congrArg (V c main_v1) ?_
  funext a
  apply Fin.ext
  match a with
  | ⟨0, _⟩ => show win0_1.index t (0 : Fin 2) * 1024 + 1 * k.val = k.val; rw [e2]; omega
  | ⟨1, _⟩ => show win0_1.index t (1 : Fin 2) * 3072 + 1 * j.val = j.val; rw [e3]; omega

/-- The joined bias row's block at every grid point is the whole row. -/
theorem iblk0_2_at (c : Dev nD) (t : Fin cfg0.N) (j : Fin 3072) :
    (iblk0 V c 2 t : Vec Ideal S1x3072 .f32) (ix2 (0 : Fin 1) j) = (V c main_v3 : S1x3072.Idx → EReal) (ix2 (0 : Fin 1) j) := by
  obtain ⟨-, -, -, -, e4, e5, -⟩ := index0 t
  unfold iblk0
  rw [View.read_apply]
  show V c main_v3 _ = V c main_v3 _
  refine congrArg (V c main_v3) ?_
  funext a
  apply Fin.ext
  match a with
  | ⟨0, _⟩ => show win0_2.index t (0 : Fin 2) * 1 + 1 * 0 = 0; rw [e4]
  | ⟨1, _⟩ => show win0_2.index t (1 : Fin 2) * 3072 + 1 * j.val = j.val; rw [e5]; omega

/-- Entry (p, q) of the query result's block at grid point t sits at (512 t + p, q) of the query result. -/
theorem emb0_3 (t : Fin cfg0.N) (p : Fin 512) (q : Fin 1024) (r : Fin 8192) (hr : r.val = 512 * t.val + p.val) :
    ((cfg0.win 3).blk t).view.emb (ix2 p q) = (ix2 r q : S8192x1024.Idx) := by
  obtain ⟨-, -, -, -, -, -, e6, e7, -⟩ := index0 t
  funext a
  apply Fin.ext
  match a with
  | ⟨0, _⟩ => show win0_3.index t (0 : Fin 2) * 512 + 1 * p.val = r.val; rw [e6, hr]; omega
  | ⟨1, _⟩ => show win0_3.index t (1 : Fin 2) * 1024 + 1 * q.val = q.val; rw [e7]; omega

/-- The same for the key result. -/
theorem emb0_4 (t : Fin cfg0.N) (p : Fin 512) (q : Fin 1024) (r : Fin 8192) (hr : r.val = 512 * t.val + p.val) :
    ((cfg0.win 4).blk t).view.emb (ix2 p q) = (ix2 r q : S8192x1024.Idx) := by
  obtain ⟨-, -, -, -, -, -, -, -, e8, e9, -⟩ := index0 t
  funext a
  apply Fin.ext
  match a with
  | ⟨0, _⟩ => show win0_4.index t (0 : Fin 2) * 512 + 1 * p.val = r.val; rw [e8, hr]; omega
  | ⟨1, _⟩ => show win0_4.index t (1 : Fin 2) * 1024 + 1 * q.val = q.val; rw [e9]; omega

/-- The same for the value result. -/
theorem emb0_5 (t : Fin cfg0.N) (p : Fin 512) (q : Fin 1024) (r : Fin 8192) (hr : r.val = 512 * t.val + p.val) :
    ((cfg0.win 5).blk t).view.emb (ix2 p q) = (ix2 r q : S8192x1024.Idx) := by
  obtain ⟨-, -, -, -, -, -, -, -, -, -, e10, e11⟩ := index0 t
  funext a
  apply Fin.ext
  match a with
  | ⟨0, _⟩ => show win0_5.index t (0 : Fin 2) * 512 + 1 * p.val = r.val; rw [e10, hr]; omega
  | ⟨1, _⟩ => show win0_5.index t (1 : Fin 2) * 1024 + 1 * q.val = q.val; rw [e11]; omega

/-! ## What a grid point writes back -/

/-- Grid point t writes back, to the query result, block t of the projection at column offset 0. -/
theorem flushed0_3_eq (c : Dev nD) (t : Fin cfg0.N) :
    (dat0 (F := Ideal) V c).flushed 3 t
      = ((cfg0.win 3).blk t).view.read (Elt Ideal)
          (Cert.Spec.proj 3072 0 (by norm_num) (V c main_v4) (V c main_v1) (V c main_v3)) := by
  show (cfg0.win 3).cut (grid0.coords t) ((dat0 V c).after 3 t) = _
  rw [after0_3]
  unfold out0_3
  rw [View.canon_unit_zero zeros0]
  simp only [View.ld_unit_zero (S := S512x1024) zeros0, View.ld_unit_zero (S := S1024x3072) zeros0,
    View.ld_unit_zero (S := S1x3072) zeros0]
  funext j
  obtain ⟨p, q, rfl⟩ : ∃ (p : Fin 512) (q : Fin 1024), j = ix2 p q := ⟨j 0, j 1, eq_ix2 j⟩
  have hN : cfg0.N = 16 := N_0
  have hr : 512 * t.val + p.val < 8192 := by have := t.isLt; have := p.isLt; omega
  show k0_pay2 (F := Ideal) (iblk0 V c 0 t) (iblk0 V c 1 t) (iblk0 V c 2 t) (ix2 p q)
    = Cert.Spec.proj 3072 0 (by norm_num) (V c main_v4) (V c main_v1) (V c main_v3) (((cfg0.win 3).blk t).view.emb (ix2 p q))
  rw [emb0_3 t p q ⟨512 * t.val + p.val, hr⟩ rfl, Cert.Spec.proj_ix2]
  refine (pay0_q_at (iblk0 V c 0 t) (iblk0 V c 1 t) (iblk0 V c 2 t) p q (by norm_num)).trans ?_
  unfold Cert.Spec.projAt
  refine congrArg₂ (· + ·) (Finset.sum_congr rfl fun k _ => congrArg₂ (· * ·) ?_ ?_) ?_
  · exact iblk0_0_at V c t p k _ rfl
  · exact iblk0_1_at V c t k _
  · exact iblk0_2_at V c t _

/-- To the key result, block t of the projection at column offset 1024. -/
theorem flushed0_4_eq (c : Dev nD) (t : Fin cfg0.N) :
    (dat0 (F := Ideal) V c).flushed 4 t
      = ((cfg0.win 4).blk t).view.read (Elt Ideal)
          (Cert.Spec.proj 3072 1024 (by norm_num) (V c main_v4) (V c main_v1) (V c main_v3)) := by
  show (cfg0.win 4).cut (grid0.coords t) ((dat0 V c).after 4 t) = _
  rw [after0_4]
  unfold out0_4
  rw [View.canon_unit_zero zeros0]
  simp only [View.ld_unit_zero (S := S512x1024) zeros0, View.ld_unit_zero (S := S1024x3072) zeros0,
    View.ld_unit_zero (S := S1x3072) zeros0]
  funext j
  obtain ⟨p, q, rfl⟩ : ∃ (p : Fin 512) (q : Fin 1024), j = ix2 p q := ⟨j 0, j 1, eq_ix2 j⟩
  have hN : cfg0.N = 16 := N_0
  have hr : 512 * t.val + p.val < 8192 := by have := t.isLt; have := p.isLt; omega
  show k0_pay3 (F := Ideal) (iblk0 V c 0 t) (iblk0 V c 1 t) (iblk0 V c 2 t) (ix2 p q)
    = Cert.Spec.proj 3072 1024 (by norm_num) (V c main_v4) (V c main_v1) (V c main_v3) (((cfg0.win 4).blk t).view.emb (ix2 p q))
  rw [emb0_4 t p q ⟨512 * t.val + p.val, hr⟩ rfl, Cert.Spec.proj_ix2]
  refine (pay0_k_at (iblk0 V c 0 t) (iblk0 V c 1 t) (iblk0 V c 2 t) p q (by norm_num)).trans ?_
  unfold Cert.Spec.projAt
  refine congrArg₂ (· + ·) (Finset.sum_congr rfl fun k _ => congrArg₂ (· * ·) ?_ ?_) ?_
  · exact iblk0_0_at V c t p k _ rfl
  · exact iblk0_1_at V c t k _
  · exact iblk0_2_at V c t _

/-- To the value result, block t of the projection at column offset 2048. -/
theorem flushed0_5_eq (c : Dev nD) (t : Fin cfg0.N) :
    (dat0 (F := Ideal) V c).flushed 5 t
      = ((cfg0.win 5).blk t).view.read (Elt Ideal)
          (Cert.Spec.proj 3072 2048 (by norm_num) (V c main_v4) (V c main_v1) (V c main_v3)) := by
  show (cfg0.win 5).cut (grid0.coords t) ((dat0 V c).after 5 t) = _
  rw [after0_5]
  unfold out0_5
  rw [View.canon_unit_zero zeros0]
  simp only [View.ld_unit_zero (S := S512x1024) zeros0, View.ld_unit_zero (S := S1024x3072) zeros0,
    View.ld_unit_zero (S := S1x3072) zeros0]
  funext j
  obtain ⟨p, q, rfl⟩ : ∃ (p : Fin 512) (q : Fin 1024), j = ix2 p q := ⟨j 0, j 1, eq_ix2 j⟩
  have hN : cfg0.N = 16 := N_0
  have hr : 512 * t.val + p.val < 8192 := by have := t.isLt; have := p.isLt; omega
  show k0_pay4 (F := Ideal) (iblk0 V c 0 t) (iblk0 V c 1 t) (iblk0 V c 2 t) (ix2 p q)
    = Cert.Spec.proj 3072 2048 (by norm_num) (V c main_v4) (V c main_v1) (V c main_v3) (((cfg0.win 5).blk t).view.emb (ix2 p q))
  rw [emb0_5 t p q ⟨512 * t.val + p.val, hr⟩ rfl, Cert.Spec.proj_ix2]
  refine (pay0_v_at (iblk0 V c 0 t) (iblk0 V c 1 t) (iblk0 V c 2 t) p q (by norm_num)).trans ?_
  unfold Cert.Spec.projAt
  refine congrArg₂ (· + ·) (Finset.sum_congr rfl fun k _ => congrArg₂ (· * ·) ?_ ?_) ?_
  · exact iblk0_0_at V c t p k _ rfl
  · exact iblk0_1_at V c t k _
  · exact iblk0_2_at V c t _

/-! ## The blocks cover each result, and the whole arrays -/

/-- An index of the query result is in grid point t's block iff each coordinate is in the block's range on its axis. -/
theorem mem_blk0_3 (t : Fin cfg0.N) (i : S8192x1024.Idx) :
    i ∈ ((cfg0.win 3).blk t).view.set
      ↔ ∀ a : Fin 2, win0_3.index t a * S512x1024.size a ≤ (i a).val ∧ (i a).val < win0_3.index t a * S512x1024.size a + S512x1024.size a := by
  show i ∈ ((View.whole main_v5_0).slice (win0_3.rect t)).set ↔ _
  rw [View.set_slice_whole, Rect.mem_set_unit]
  exact Iff.rfl

/-- The same for the key result. -/
theorem mem_blk0_4 (t : Fin cfg0.N) (i : S8192x1024.Idx) :
    i ∈ ((cfg0.win 4).blk t).view.set
      ↔ ∀ a : Fin 2, win0_4.index t a * S512x1024.size a ≤ (i a).val ∧ (i a).val < win0_4.index t a * S512x1024.size a + S512x1024.size a := by
  show i ∈ ((View.whole main_v5_1).slice (win0_4.rect t)).set ↔ _
  rw [View.set_slice_whole, Rect.mem_set_unit]
  exact Iff.rfl

/-- The same for the value result. -/
theorem mem_blk0_5 (t : Fin cfg0.N) (i : S8192x1024.Idx) :
    i ∈ ((cfg0.win 5).blk t).view.set
      ↔ ∀ a : Fin 2, win0_5.index t a * S512x1024.size a ≤ (i a).val ∧ (i a).val < win0_5.index t a * S512x1024.size a + S512x1024.size a := by
  show i ∈ ((View.whole main_v5_2).slice (win0_5.rect t)).set ↔ _
  rw [View.set_slice_whole, Rect.mem_set_unit]
  exact Iff.rfl

/-- Row r of the query result lies in block r / 512, and every grid point writes back. -/
theorem covered0_3 (i : S8192x1024.Idx) :
    ∃ t : Fin cfg0.N, (cfg0.win 3).flush t = true ∧ i ∈ ((cfg0.win 3).blk t).view.set := by
  have hN : cfg0.N = 16 := N_0
  have hi0 : (i 0).val < 8192 := (i 0).isLt
  have hi1 : (i 1).val < 1024 := (i 1).isLt
  refine ⟨⟨(i 0).val / 512, by omega⟩, flush0_3 _, ?_⟩
  rw [mem_blk0_3]
  obtain ⟨-, -, -, -, -, -, e6, e7, -⟩ := index0 ⟨(i 0).val / 512, by omega⟩
  intro a
  match a with
  | ⟨0, _⟩ =>
    show win0_3.index ⟨(i 0).val / 512, _⟩ (0 : Fin 2) * 512 ≤ (i 0).val ∧ (i 0).val < win0_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, _⟩ (1 : Fin 2) * 1024 ≤ (i 1).val ∧ (i 1).val < win0_3.index ⟨(i 0).val / 512, _⟩ (1 : Fin 2) * 1024 + 1024
    rw [e7]; omega

/-- The same for the key result. -/
theorem covered0_4 (i : S8192x1024.Idx) :
    ∃ t : Fin cfg0.N, (cfg0.win 4).flush t = true ∧ i ∈ ((cfg0.win 4).blk t).view.set := by
  have hN : cfg0.N = 16 := N_0
  have hi0 : (i 0).val < 8192 := (i 0).isLt
  have hi1 : (i 1).val < 1024 := (i 1).isLt
  refine ⟨⟨(i 0).val / 512, by omega⟩, flush0_4 _, ?_⟩
  rw [mem_blk0_4]
  obtain ⟨-, -, -, -, -, -, -, -, e8, e9, -⟩ := index0 ⟨(i 0).val / 512, by omega⟩
  intro a
  match a with
  | ⟨0, _⟩ =>
    show win0_4.index ⟨(i 0).val / 512, _⟩ (0 : Fin 2) * 512 ≤ (i 0).val ∧ (i 0).val < win0_4.index ⟨(i 0).val / 512, _⟩ (0 : Fin 2) * 512 + 512
    rw [e8]; show (i 0).val / 512 * 512 ≤ (i 0).val ∧ (i 0).val < (i 0).val / 512 * 512 + 512; omega
  | ⟨1, _⟩ =>
    show win0_4.index ⟨(i 0).val / 512, _⟩ (1 : Fin 2) * 1024 ≤ (i 1).val ∧ (i 1).val < win0_4.index ⟨(i 0).val / 512, _⟩ (1 : Fin 2) * 1024 + 1024
    rw [e9]; omega

/-- The same for the value result. -/
theorem covered0_5 (i : S8192x1024.Idx) :
    ∃ t : Fin cfg0.N, (cfg0.win 5).flush t = true ∧ i ∈ ((cfg0.win 5).blk t).view.set := by
  have hN : cfg0.N = 16 := N_0
  have hi0 : (i 0).val < 8192 := (i 0).isLt
  have hi1 : (i 1).val < 1024 := (i 1).isLt
  refine ⟨⟨(i 0).val / 512, by omega⟩, flush0_5 _, ?_⟩
  rw [mem_blk0_5]
  obtain ⟨-, -, -, -, -, -, -, -, -, -, e10, e11⟩ := index0 ⟨(i 0).val / 512, by omega⟩
  intro a
  match a with
  | ⟨0, _⟩ =>
    show win0_5.index ⟨(i 0).val / 512, _⟩ (0 : Fin 2) * 512 ≤ (i 0).val ∧ (i 0).val < win0_5.index ⟨(i 0).val / 512, _⟩ (0 : Fin 2) * 512 + 512
    rw [e10]; show (i 0).val / 512 * 512 ≤ (i 0).val ∧ (i 0).val < (i 0).val / 512 * 512 + 512; omega
  | ⟨1, _⟩ =>
    show win0_5.index ⟨(i 0).val / 512, _⟩ (1 : Fin 2) * 1024 ≤ (i 1).val ∧ (i 1).val < win0_5.index ⟨(i 0).val / 512, _⟩ (1 : Fin 2) * 1024 + 1024
    rw [e11]; omega

/-- The query result after the call: the projection of the flattened input at column offset 0. -/
theorem final0_3 (c : Dev nD) :
    (dat0 (F := Ideal) V c).arrAt 3 cfg0.N = Cert.Spec.proj 3072 0 (by norm_num) (V c main_v4) (V c main_v1) (V c main_v3) :=
  (dat0 (F := Ideal) V c).arrAt_eq_of_cover 3 _ (fun t _ => flushed0_3_eq V c t) covered0_3

/-- The key result: column offset 1024. -/
theorem final0_4 (c : Dev nD) :
    (dat0 (F := Ideal) V c).arrAt 4 cfg0.N = Cert.Spec.proj 3072 1024 (by norm_num) (V c main_v4) (V c main_v1) (V c main_v3) :=
  (dat0 (F := Ideal) V c).arrAt_eq_of_cover 4 _ (fun t _ => flushed0_4_eq V c t) covered0_4

/-- The value result: column offset 2048. -/
theorem final0_5 (c : Dev nD) :
    (dat0 (F := Ideal) V c).arrAt 5 cfg0.N = Cert.Spec.proj 3072 2048 (by norm_num) (V c main_v4) (V c main_v1) (V c main_v3) :=
  (dat0 (F := Ideal) V c).arrAt_eq_of_cover 5 _ (fun t _ => flushed0_5_eq V c t) covered0_5

end

end Cert.KernelIdeal.Hand
end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.IdealR1PayScore.lean ====
/-
  One head of the attention call on the extended reals, entry by entry — part one: the scaled scores and the
  row maximum.

  The body forms, for a head, the matrix of scaled dot products of the 512 query rows of the block with the 2048 key
  rows, over the head's 64 lanes: a matrix product that contracts the lane axis of BOTH operands into the zero
  accumulator, times the constant 1/8 spread over the matrix. It then takes each row's maximum over the 2048 keys,
  starting from minus infinity, turns the 512 maxima into a column and spreads the column over the matrix.
  Here both steps are named as functions of their operands, and read at an entry:

  * headScores qs ks at (i, k) is (Σ_d qs(i,d)·ks(k,d)) · s, with s the value of the 1/8 word;
  * rowMaxSpread s at (i, k) is the fold of max from ⊥ over the entries of row i of s — independent of k.
-/
import proofs.«135862_j34411277975788_2_alg».proof.Proof.Gen.KernelIdeal.Skeleton
import proofs.«135862_j34411277975788_2_alg».proof.Proof.LibRealSums
import proofs.«135862_j34411277975788_2_alg».proof.Proof.LibKeepdims
import proofs.«135862_j34411277975788_2_alg».proof.Proof.LibColumnBroadcast
import proofs.«135862_j34411277975788_2_alg».proof.Proof.LibIndexReads
import Idealize.ShloMosaic.Lib.ValueIdx
import Idealize.ShloMosaic.Lib.ValueLayout

noncomputable section

open scoped BigOperators

namespace Cert.KernelIdeal.Hand

open Idealize.ShloMosaic Idealize.ShloMosaic.ValueIdx
open Cert.KernelIdeal Cert.KernelIdeal.Gen

section Generic
variable {F : FTy → Type} [FloatOps F]

/-- The scaled scores of a head: queries times keys over the lanes, times the 1/8 word. -/
def headScores (qs : FVec F S512x64 .bf16) (ks : FVec F S2048x64 .bf16) : FVec F S512x2048 .f32 :=
  mulf (matmul dot_S512x64_S2048x64_S512x2048_1_1_0_0_n_n none qs ks (constant S512x2048 .f32 0x00000000#32))
    (broadcast S512x2048 (Scalar.ofBits .f32 0x3E000000#32))

/-- Each row's maximum from the minus-infinity word, as a column, spread back over the matrix. -/
def rowMaxSpread (s : FVec F S512x2048 .f32) : FVec F S512x2048 .f32 :=
  broadcastTo S512x2048
    (shapeCast S512x1 (multiReduction .maximumf [1] S512 s 0xFF800000#32 reduces_S512x2048_S512 (.inl rfl) rfl) shapeCasts_S512_S512x1)
    broadcasts_S512x1_S512x2048

end Generic

/-! ## The dimension numbers of the scores' product: both operands are contracted along their lane axis -/

theorem scoreDot_lhs0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

theorem scoreDot_rhs0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- The left operand is read at (query row, lane). -/
theorem scoreDot_lhsIdx (i : Fin 512) (k : Fin 2048) (d : Fin 64) :
    dot_S512x64_S2048x64_S512x2048_1_1_0_0_n_n.lhsIdx (ix2 i k)
      ((contrEquiv1 dot_S512x64_S2048x64_S512x2048_1_1_0_0_n_n 64 rfl rfl).symm d) = ix2 i d :=
  funext fun a => Fin.ext (by
    match a with
    | ⟨0, _⟩ => exact scoreDot_lhs0 _ _
    | ⟨1, _⟩ => exact (dot_S512x64_S2048x64_S512x2048_1_1_0_0_n_n.lhsIdx_val_of_single rfl _ _).trans (contrEquiv1_symm_val dot_S512x64_S2048x64_S512x2048_1_1_0_0_n_n 64 rfl rfl d))

/-- The right operand is read at (key row, lane). -/
theorem scoreDot_rhsIdx (i : Fin 512) (k : Fin 2048) (d : Fin 64) :
    dot_S512x64_S2048x64_S512x2048_1_1_0_0_n_n.rhsIdx (ix2 i k)
      ((contrEquiv1 dot_S512x64_S2048x64_S512x2048_1_1_0_0_n_n 64 rfl rfl).symm d) = ix2 k d :=
  funext fun a => Fin.ext (by
    match a with
    | ⟨0, _⟩ => exact scoreDot_rhs0 _ _
    | ⟨1, _⟩ => exact (dot_S512x64_S2048x64_S512x2048_1_1_0_0_n_n.rhsIdx_val_of_single rfl _ _).trans (contrEquiv1_symm_val dot_S512x64_S2048x64_S512x2048_1_1_0_0_n_n 64 rfl rfl d))

/-! ## The two steps at an entry -/

/-- The scaled score of query row i and key row k: the dot product over the 64 lanes, times the 1/8 word. -/
theorem headScores_apply (qs : FVec Ideal S512x64 .bf16) (ks : FVec Ideal S2048x64 .bf16) (i : Fin 512) (k : Fin 2048) :
    headScores qs ks (ix2 i k) = (∑ d : Fin 64, qs (ix2 i d) * ks (ix2 k d)) * Ideal.ofBits .f32 0x3E000000#32 :=
  congrArg (· * Ideal.ofBits .f32 0x3E000000#32)
    (Cert.IndexReads.matmul_zero_single dot_S512x64_S2048x64_S512x2048_1_1_0_0_n_n 64 rfl rfl none qs ks (ix2 i k)
      (fun d => ix2 i d) (fun d => ix2 k d) (fun d => scoreDot_lhsIdx i k d) (fun d => scoreDot_rhsIdx i k d))

/-- The spread row maximum at (i, k): the largest entry of row i, from ⊥. -/
theorem rowMaxSpread_apply (s : FVec Ideal S512x2048 .f32) (i : Fin 512) (k : Fin 2048) :
    rowMaxSpread s (ix2 i k) = (Finset.univ : Finset (Fin 2048)).fold max ⊥ (fun k' => s (ix2 i k')) :=
  (Cert.WeightUpdate.Layout.broadcastTo_a1_ab_apply _ broadcasts_S512x1_S512x2048 i k).trans
    ((Cert.MemAttn.Layout.shapeCast_a_a1_apply _ shapeCasts_S512_S512x1 i 0).trans
      ((Cert.MemAttn.Layout.multiReduction_maximumf_row s 0xFF800000#32 reduces_S512x2048_S512 (.inl rfl) rfl i).trans
        (congrArg (fun z => (Finset.univ : Finset (Fin 2048)).fold max z (fun k' => s (ix2 i k'))) Cert.Math.ofBits_neg_inf)))

end Cert.KernelIdeal.Hand

end
-- ==== Proof.IdealR1PayHead.lean ====
/-
  One head of the attention call on the extended reals, entry by entry — part two: from the numerators to the head's
  block, the head's whole computation, and the two stored pieces of the body as that computation at the two lane bands.

  After the scores s and their spread row maxima m the body forms p = e^(s − m); the weighted sum of the head's values,
  p times vs, a rows-by-columns matrix product into the zero accumulator; the row totals of p from the zero word, as a
  column spread over the 64 lanes; and the quotient of the two, viewed as a [1, 512, 64] block. Changes of float format
  are the identity on the extended reals.

  * headQuot vs p at (0, i, d) is (Σ_k p(i,k)·vs(k,d)) / (Σ_k p(i,k)): the weighted sum first, then ONE division;
  * headValue qs ks vs composes the scores, the maxima, the numerators and headQuot;
  * laneBand / laneBandKV cut the 64 lanes from a lane offset out of a [1, a, 128] block viewed as [a, 128];
  * the body's first stored piece is headValue at lane offset 0 and its second at lane offset 64, by unfolding;
  * when the three bands are rows of arrays Q, K, V at one batch entry and one head, headValue at (0, i, d) is the
    specification's attention entry in the kernel's order.
-/
import proofs.«135862_j34411277975788_2_alg».proof.Proof.IdealR1PayScore
import proofs.«135862_j34411277975788_2_alg».proof.Proof.LibRowColDot
import proofs.«135862_j34411277975788_2_alg».proof.Proof.Spec

noncomputable section

open scoped BigOperators

namespace Cert.KernelIdeal.Hand

open Idealize.ShloMosaic Idealize.ShloMosaic.ValueIdx
open Cert.KernelIdeal Cert.KernelIdeal.Gen

section Generic
variable {F : FTy → Type} [FloatOps F]

/-- From the numerators and the head's values: the weighted sum, the row totals spread over the lanes, their quotient,
    as a [1, 512, 64] block. -/
def headQuot (vs : FVec F S2048x64 .bf16) (p : FVec F S512x2048 .f32) : FVec F S1x512x64 .bf16 :=
  shapeCast S1x512x64
    (truncf .bf16
      (divf
        (matmul dot_S512x2048_S2048x64_S512x64_1_0_0_1_n_n none (truncf .bf16 p bitsLt_bf16_f32) vs (constant S512x64 .f32 0x00000000#32))
        (broadcastTo S512x64
          (shapeCast S512x1 (multiReduction .add [1] S512 p 0x00000000#32 reduces_S512x2048_S512 (.inl rfl) rfl) shapeCasts_S512_S512x1)
          broadcasts_S512x1_S512x64))
      bitsLt_bf16_f32)
    shapeCasts_S512x64_S1x512x64

/-- A head's whole computation from its query, key and value bands. -/
def headValue (qs : FVec F S512x64 .bf16) (ks vs : FVec F S2048x64 .bf16) : FVec F S1x512x64 .bf16 :=
  headQuot vs (exp (subf (headScores qs ks) (rowMaxSpread (headScores qs ks))))

/-- The 64 lanes from lane offset o of a query block. -/
def laneBand (o : ℕ) (h : S512x128.Slices ![0, o] S512x64) (x : Vec F S1x512x128 .bf16) : FVec F S512x64 .bf16 :=
  extractStridedSlice S512x64 ![0, o] (shapeCast S512x128 x shapeCasts_S1x512x128_S512x128) h

/-- The 64 lanes from lane offset o of a key or value slab. -/
def laneBandKV (o : ℕ) (h : S2048x128.Slices ![0, o] S2048x64) (x : Vec F S1x2048x128 .bf16) : FVec F S2048x64 .bf16 :=
  extractStridedSlice S2048x64 ![0, o] (shapeCast S2048x128 x shapeCasts_S1x2048x128_S2048x128) h

/-- The first stored piece is the head computation on the bands at lane offset 0. -/
theorem pay_lo_eq (x0 : Vec F S1x512x128 .bf16) (x1 x2 : Vec F S1x2048x128 .bf16) :
    k1_pay5 x0 x1 x2 = headValue (laneBand 0 slices_S512x128_o0_0_S512x64 x0)
      (laneBandKV 0 slices_S2048x128_o0_0_S2048x64 x1) (laneBandKV 0 slices_S2048x128_o0_0_S2048x64 x2) := rfl

/-- The second stored piece is the head computation on the bands at lane offset 64. -/
theorem pay_hi_eq (x0 : Vec F S1x512x128 .bf16) (x1 x2 : Vec F S1x2048x128 .bf16) :
    k1_pay1 (k1_pay6 x2) (k1_pay7 x0 x1) (k1_pay8 x0 x1) = headValue (laneBand 64 slices_S512x128_o0_64_S512x64 x0)
      (laneBandKV 64 slices_S2048x128_o0_64_S2048x64 x1) (laneBandKV 64 slices_S2048x128_o0_64_S2048x64 x2) := rfl

/-- A band of a query block at (i, d) is the block at (0, i, o + d). -/
theorem laneBand_apply (o : ℕ) (h : S512x128.Slices ![0, o] S512x64) (x : Vec F S1x512x128 .bf16) (i : Fin 512) (d : Fin 64)
    (j : Fin 128) (hj : j.val = o + d.val) : laneBand o h x (ix2 i d) = x (ix3 (0 : Fin 1) i j) :=
  (slice2_axis1_apply o _ h i d j hj).trans (shapeCast_1ab_ab_apply x shapeCasts_S1x512x128_S512x128 i j)

/-- A band of a key or value slab at (k, d) is the slab at (0, k, o + d). -/
theorem laneBandKV_apply (o : ℕ) (h : S2048x128.Slices ![0, o] S2048x64) (x : Vec F S1x2048x128 .bf16) (k : Fin 2048) (d : Fin 64)
    (j : Fin 128) (hj : j.val = o + d.val) : laneBandKV o h x (ix2 k d) = x (ix3 (0 : Fin 1) k j) :=
  (slice2_axis1_apply o _ h k d j hj).trans (shapeCast_1ab_ab_apply x shapeCasts_S1x2048x128_S2048x128 k j)

end Generic

/-! ## The dimension numbers of the weighted sum: rows of the numerators times columns of the values -/

theorem wsumDot_lhs0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem wsumDot_rhs1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-! ## The quotient and the head at an entry -/

/-- The head's block at (0, i, d) from the numerators: the weighted sum of the values over the keys, divided once by
    the row total. -/
theorem headQuot_apply (vs : FVec Ideal S2048x64 .bf16) (p : FVec Ideal S512x2048 .f32) (i : Fin 512) (d : Fin 64) :
    headQuot vs p (ix3 (0 : Fin 1) i d)
      = Ideal.div (∑ k : Fin 2048, p (ix2 i k) * vs (ix2 k d)) (∑ k : Fin 2048, p (ix2 i k)) := by
  refine (shapeCast_ab_1ab_apply _ shapeCasts_S512x64_S1x512x64 (0 : Fin 1) i d).trans ?_
  have hnum : matmul dot_S512x2048_S2048x64_S512x64_1_0_0_1_n_n none (truncf .bf16 p bitsLt_bf16_f32) vs
      (constant S512x64 .f32 0x00000000#32) (ix2 i d) = ∑ k : Fin 2048, p (ix2 i k) * vs (ix2 k d) :=
    Cert.RowColDot.matmul_rowcol dot_S512x2048_S2048x64_S512x64_1_0_0_1_n_n rfl rfl rfl rfl wsumDot_lhs0 wsumDot_rhs1 none
      (truncf .bf16 p bitsLt_bf16_f32) vs (ix2 i d)
  have hden : broadcastTo S512x64
      (shapeCast S512x1 (multiReduction .add [1] S512 p 0x00000000#32 reduces_S512x2048_S512 (.inl rfl) rfl) shapeCasts_S512_S512x1)
      broadcasts_S512x1_S512x64 (ix2 i d) = ∑ k : Fin 2048, p (ix2 i k) :=
    (Cert.WeightUpdate.Layout.broadcastTo_a1_ab_apply _ broadcasts_S512x1_S512x64 i d).trans
      ((Cert.MemAttn.Layout.shapeCast_a_a1_apply _ shapeCasts_S512_S512x1 i 0).trans
        (Cert.MemAttn.Layout.multiReduction_add_row p 0x00000000#32 reduces_S512x2048_S512 (.inl rfl) rfl i))
  exact congrArg₂ Ideal.div hnum hden

/-- The head's block at (0, i, d) from its three bands: with s(i,k) the scaled dot product of query row i and key row k
    and M(i) the largest of row i, the sum over the keys of e^(s(i,k) − M(i)) times the value, divided by the sum of
    those exponentials. -/
theorem headValue_apply (qs : FVec Ideal S512x64 .bf16) (ks vs : FVec Ideal S2048x64 .bf16) (i : Fin 512) (d : Fin 64) :
    headValue qs ks vs (ix3 (0 : Fin 1) i d)
      = Ideal.div
          (∑ k : Fin 2048,
            Ideal.exp ((∑ e : Fin 64, qs (ix2 i e) * ks (ix2 k e)) * Ideal.ofBits .f32 0x3E000000#32
              - (Finset.univ : Finset (Fin 2048)).fold max ⊥
                  (fun k' => (∑ e : Fin 64, qs (ix2 i e) * ks (ix2 k' e)) * Ideal.ofBits .f32 0x3E000000#32))
              * vs (ix2 k d))
          (∑ k : Fin 2048,
            Ideal.exp ((∑ e : Fin 64, qs (ix2 i e) * ks (ix2 k e)) * Ideal.ofBits .f32 0x3E000000#32
              - (Finset.univ : Finset (Fin 2048)).fold max ⊥
                  (fun k' => (∑ e : Fin 64, qs (ix2 i e) * ks (ix2 k' e)) * Ideal.ofBits .f32 0x3E000000#32))) := by
  have hp : ∀ k : Fin 2048, exp (subf (headScores qs ks) (rowMaxSpread (headScores qs ks))) (ix2 i k)
      = Ideal.exp ((∑ e : Fin 64, qs (ix2 i e) * ks (ix2 k e)) * Ideal.ofBits .f32 0x3E000000#32
          - (Finset.univ : Finset (Fin 2048)).fold max ⊥
              (fun k' => (∑ e : Fin 64, qs (ix2 i e) * ks (ix2 k' e)) * Ideal.ofBits .f32 0x3E000000#32)) := fun k => by
    show Ideal.exp (headScores qs ks (ix2 i k) - rowMaxSpread (headScores qs ks) (ix2 i k)) = _
    rw [rowMaxSpread_apply, headScores_apply]
    simp only [headScores_apply]
  unfold headValue
  rw [headQuot_apply]
  simp only [hp]

/-- When the bands are rows of Q, K, V at batch entry b and head H — the query rows those numbered q i — the head's
    block at (0, i, d) is the specification's attention entry in the kernel's order. -/
theorem headValue_attn (Q K V : Cert.Spec.Arr3 4 2048 1024) (b : Fin 4) (H : Fin 16) (q : Fin 512 → Fin 2048)
    (qs : FVec Ideal S512x64 .bf16) (ks vs : FVec Ideal S2048x64 .bf16)
    (hq : ∀ (i : Fin 512) (e : Fin 64), qs (ix2 i e) = Q (ix3 b (q i) (Cert.Spec.hcol H e)))
    (hk : ∀ (k : Fin 2048) (e : Fin 64), ks (ix2 k e) = K (ix3 b k (Cert.Spec.hcol H e)))
    (hv : ∀ (k : Fin 2048) (e : Fin 64), vs (ix2 k e) = V (ix3 b k (Cert.Spec.hcol H e)))
    (i : Fin 512) (d : Fin 64) :
    headValue qs ks vs (ix3 (0 : Fin 1) i d) = Cert.Spec.attnAtK Cert.Spec.scK Q K V b (q i) H d := by
  rw [headValue_apply]
  unfold Cert.Spec.attnAtK Cert.Spec.wsum Cert.Spec.wgt Cert.Spec.rowMax Cert.Spec.score Cert.Spec.scK
  simp only [hq, hk, hv]

end Cert.KernelIdeal.Hand

end
-- ==== Proof.IdealR1PayBlock.lean ====
/-
  The attention call's result block at a grid point, entry by entry.

  The body stores two pieces into the [1, 512, 128] result block: the first head's [1, 512, 64] result into lanes
  0 … 63 and the second head's into lanes 64 … 127. Suppose the three input blocks are what the grid point's windows
  hold of arrays Q, K, V: batch entry b, the 128 columns from 128·hp (two heads side by side), query rows q i, all
  2048 key rows. Then each stored piece is the block, cut to its half, of ONE function of the block's index: at
  (0, i, j) the specification's attention array, in the kernel's order, at (b, q i, 128·hp + j). The two halves
  tile the block, so the block the body leaves is that function everywhere.

  Column 128·hp + 64·h + d is lane d of head 2·hp + h: its head number is the quotient by 64, its lane the remainder.
-/
import proofs.«135862_j34411277975788_2_alg».proof.Proof.IdealR1Defs
import proofs.«135862_j34411277975788_2_alg».proof.Proof.IdealR1PayHead

noncomputable section

open scoped BigOperators

namespace Cert.KernelIdeal.Hand

open Idealize.ShloMosaic Idealize.ShloMosaic.ValueIdx
open Cert.KernelIdeal Cert.KernelIdeal.Gen

/-- Column 128·hp + j of the 1024: column j of the block of head pair hp. -/
def blockCol (hp : Fin 8) (j : Fin 128) : Fin 1024 := ⟨128 * hp.val + j.val, by have := hp.isLt; have := j.isLt; omega⟩

theorem r1_zero3 : (![0, 0, 0] : Fin 3 → Nat) = fun _ => 0 := funext fun a => by fin_cases a <;> rfl

/-- One head's piece at (0, i, d), the bands cut at lane offset 64·h: the attention array at row q i and the block's
    column 64·h + d. -/
theorem band_entry (Q K V : Cert.Spec.Arr3 4 2048 1024) (b : Fin 4) (hp : Fin 8) (q : Fin 512 → Fin 2048)
    (x0 : Vec Ideal S1x512x128 .bf16) (x1 x2 : Vec Ideal S1x2048x128 .bf16)
    (hq : ∀ (i : Fin 512) (j : Fin 128), x0 (ix3 (0 : Fin 1) i j) = Q (ix3 b (q i) (blockCol hp j)))
    (hk : ∀ (k : Fin 2048) (j : Fin 128), x1 (ix3 (0 : Fin 1) k j) = K (ix3 b k (blockCol hp j)))
    (hv : ∀ (k : Fin 2048) (j : Fin 128), x2 (ix3 (0 : Fin 1) k j) = V (ix3 b k (blockCol hp j)))
    (h : Fin 2) (o : ℕ) (ho : o = 64 * h.val) (sq : S512x128.Slices ![0, o] S512x64) (sk : S2048x128.Slices ![0, o] S2048x64)
    (i : Fin 512) (d : Fin 64) (j : Fin 128) (hj : j.val = o + d.val) :
    headValue (laneBand o sq x0) (laneBandKV o sk x1) (laneBandKV o sk x2) (ix3 (0 : Fin 1) i d)
      = Cert.Spec.attnK Cert.Spec.scK Q K V (ix3 b (q i) (blockCol hp j)) := by
  have hhp := hp.isLt
  have hh := h.isLt
  have hd := d.isLt
  have hH : Cert.Spec.headOf (blockCol hp j) = (⟨2 * hp.val + h.val, by omega⟩ : Fin 16) :=
    Fin.ext (by show (128 * hp.val + j.val) / 64 = 2 * hp.val + h.val; omega)
  have hL : Cert.Spec.laneOf (blockCol hp j) = d :=
    Fin.ext (by show (128 * hp.val + j.val) % 64 = d.val; omega)
  have hcol : ∀ e : Fin 64, ∀ j' : Fin 128, j'.val = o + e.val →
      blockCol hp j' = Cert.Spec.hcol (⟨2 * hp.val + h.val, by omega⟩ : Fin 16) e := fun e j' hj' =>
    Fin.ext (by show 128 * hp.val + j'.val = 64 * (2 * hp.val + h.val) + e.val; omega)
  have hlt : ∀ e : Fin 64, o + e.val < 128 := fun e => by have := e.isLt; omega
  rw [Cert.Spec.attnK_ix3, hH, hL]
  refine headValue_attn Q K V b (⟨2 * hp.val + h.val, by omega⟩ : Fin 16) q _ _ _ (fun i' e => ?_) (fun k e => ?_) (fun k e => ?_) i d
  · exact (laneBand_apply o sq x0 i' e ⟨o + e.val, hlt e⟩ rfl).trans
      ((hq i' _).trans (congrArg (fun c => Q (ix3 b (q i') c)) (hcol e _ rfl)))
  · exact (laneBandKV_apply o sk x1 k e ⟨o + e.val, hlt e⟩ rfl).trans
      ((hk k _).trans (congrArg (fun c => K (ix3 b k c)) (hcol e _ rfl)))
  · exact (laneBandKV_apply o sk x2 k e ⟨o + e.val, hlt e⟩ rfl).trans
      ((hv k _).trans (congrArg (fun c => V (ix3 b k c)) (hcol e _ rfl)))

/-- Where the second head's half puts its entry (0, i, d): at (0, i, 64 + d) of the block. -/
theorem r1_hi_emb (i : Fin 512) (d : Fin 64) (j : Fin 128) (hj : j.val = 64 + d.val) :
    r1_hi.emb (ix3 (0 : Fin 1) i d) = ix3 (0 : Fin 1) i j :=
  funext fun a => Fin.ext (by
    match a with
    | ⟨0, _⟩ => show 0 + 1 * 0 = 0; rfl
    | ⟨1, _⟩ => show 0 + 1 * i.val = i.val; omega
    | ⟨2, _⟩ => show 64 + 1 * d.val = j.val; omega)

/-- Where the first head's half puts its entry (0, i, d): at (0, i, d) of the block. -/
theorem r1_lo_emb (i : Fin 512) (d : Fin 64) (j : Fin 128) (hj : j.val = d.val) :
    r1_lo.emb (ix3 (0 : Fin 1) i d) = ix3 (0 : Fin 1) i j :=
  funext fun a => Fin.ext (by
    match a with
    | ⟨0, _⟩ => show 0 + 1 * 0 = 0; rfl
    | ⟨1, _⟩ => show 0 + 1 * i.val = i.val; omega
    | ⟨2, _⟩ => show 0 + 1 * d.val = j.val; omega)

/-- The block the body leaves, at an index y: the attention array at batch entry b, row q (y 1) and the block's
    column y 2. -/
theorem out1_3_apply (Q K V : Cert.Spec.Arr3 4 2048 1024) (b : Fin 4) (hp : Fin 8) (q : Fin 512 → Fin 2048)
    (x0 : Vec Ideal S1x512x128 .bf16) (x1 x2 : Vec Ideal S1x2048x128 .bf16)
    (hq : ∀ (i : Fin 512) (j : Fin 128), x0 (ix3 (0 : Fin 1) i j) = Q (ix3 b (q i) (blockCol hp j)))
    (hk : ∀ (k : Fin 2048) (j : Fin 128), x1 (ix3 (0 : Fin 1) k j) = K (ix3 b k (blockCol hp j)))
    (hv : ∀ (k : Fin 2048) (j : Fin 128), x2 (ix3 (0 : Fin 1) k j) = V (ix3 b k (blockCol hp j)))
    (y : S1x512x128.Idx) :
    out1_3 x0 x1 x2 y = Cert.Spec.attnK Cert.Spec.scK Q K V (ix3 b (q (y 1)) (blockCol hp (y 2))) := by
  unfold out1_3
  rw [View.ld_unit_zero (S := S1x512x128) r1_zero3, View.ld_unit_zero (S := S1x2048x128) r1_zero3,
    View.ld_unit_zero (S := S1x2048x128) r1_zero3, pay_hi_eq, pay_lo_eq]
  refine View.canon_apply_of_pieces (Val := Elt Ideal) (S := S1x512x128) (e := .bf16)
    (fun y : S1x512x128.Idx => Cert.Spec.attnK Cert.Spec.scK Q K V (ix3 b (q (y 1)) (blockCol hp (y 2)))) _ ?_ y (cover1_3 _ _ y)
  intro p hmem x
  simp only [List.mem_cons, List.mem_singleton, List.not_mem_nil, or_false] at hmem
  rcases hmem with rfl | rfl
  · obtain ⟨u, i, d, rfl⟩ : ∃ (u : Fin 1) (i : Fin 512) (d : Fin 64), x = ix3 u i d := ⟨x 0, x 1, x 2, eq_ix3 x⟩
    obtain rfl : u = 0 := Subsingleton.elim _ _
    have hd := d.isLt
    show headValue (laneBand 64 slices_S512x128_o0_64_S512x64 x0) (laneBandKV 64 slices_S2048x128_o0_64_S2048x64 x1)
        (laneBandKV 64 slices_S2048x128_o0_64_S2048x64 x2) (ix3 (0 : Fin 1) i d)
      = (fun y : S1x512x128.Idx => Cert.Spec.attnK Cert.Spec.scK Q K V (ix3 b (q (y 1)) (blockCol hp (y 2))))
          (r1_hi.emb (ix3 (0 : Fin 1) i d))
    rw [r1_hi_emb i d ⟨64 + d.val, by omega⟩ rfl]
    exact band_entry Q K V b hp q x0 x1 x2 hq hk hv 1 64 rfl slices_S512x128_o0_64_S512x64 slices_S2048x128_o0_64_S2048x64 i d
      ⟨64 + d.val, by omega⟩ rfl
  · obtain ⟨u, i, d, rfl⟩ : ∃ (u : Fin 1) (i : Fin 512) (d : Fin 64), x = ix3 u i d := ⟨x 0, x 1, x 2, eq_ix3 x⟩
    obtain rfl : u = 0 := Subsingleton.elim _ _
    have hd := d.isLt
    show headValue (laneBand 0 slices_S512x128_o0_0_S512x64 x0) (laneBandKV 0 slices_S2048x128_o0_0_S2048x64 x1)
        (laneBandKV 0 slices_S2048x128_o0_0_S2048x64 x2) (ix3 (0 : Fin 1) i d)
      = (fun y : S1x512x128.Idx => Cert.Spec.attnK Cert.Spec.scK Q K V (ix3 b (q (y 1)) (blockCol hp (y 2))))
          (r1_lo.emb (ix3 (0 : Fin 1) i d))
    rw [r1_lo_emb i d ⟨0 + d.val, by omega⟩ (Nat.zero_add _)]
    exact band_entry Q K V b hp q x0 x1 x2 hq hk hv 0 0 rfl slices_S512x128_o0_0_S512x64 slices_S2048x128_o0_0_S2048x64 i d
      ⟨0 + d.val, by omega⟩ rfl

end Cert.KernelIdeal.Hand

end
-- ==== Proof.IdealR1Value.lean ====
/-
  The attention call's final array on the extended reals: the specification's attention array, in the kernel's order.

  The grid is batch entry × head pair × query block (4 × 8 × 4), the points numbered row-major: point t has batch
  entry t / 32, head pair (t / 4) mod 8 and query block t mod 4. At a point, the query window holds rows
  512·(t mod 4) … of batch entry t / 32 at columns 128·((t / 4) mod 8) …; the key and value windows hold all 2048 rows of
  that batch entry at those columns; the result window is placed like the query window. A block's coordinate on an axis
  is its block index there times the block's size plus the coordinate inside the block.

  * The index maps' values are decided once over the 128 points.
  * Each input block, at (0, i, j), is its array at the coordinates above.
  * So the block a point writes back is the point's block of ONE array, the attention array of Q, K, V.
  * Every index (b, s, j) of the result lies in the block of the point with batch entry b, head pair j / 128 and
    query block s / 512; every point writes back. Hence the array ends holding the attention array.
-/
import proofs.«135862_j34411277975788_2_alg».proof.Proof.IdealR1Defs
import proofs.«135862_j34411277975788_2_alg».proof.Proof.IdealR1PayBlock
import proofs.«135862_j34411277975788_2_alg».proof.Proof.Spec
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The four windows' block indices at every grid point. -/
theorem index_facts1 : ∀ t : Fin cfg1.N,
    win1_0.index t (0 : Fin 3) = t.val / 32 ∧ win1_0.index t (1 : Fin 3) = t.val % 4 ∧ win1_0.index t (2 : Fin 3) = t.val / 4 % 8
    ∧ win1_1.index t (0 : Fin 3) = t.val / 32 ∧ win1_1.index t (1 : Fin 3) = 0 ∧ win1_1.index t (2 : Fin 3) = t.val / 4 % 8
    ∧ win1_2.index t (0 : Fin 3) = t.val / 32 ∧ win1_2.index t (1 : Fin 3) = 0 ∧ win1_2.index t (2 : Fin 3) = t.val / 4 % 8
    ∧ win1_3.index t (0 : Fin 3) = t.val / 32 ∧ win1_3.index t (1 : Fin 3) = t.val % 4 ∧ win1_3.index t (2 : Fin 3) = t.val / 4 % 8 :=
  (by decide +kernel : ∀ t : Fin grid1.N, _)

/-- The batch entry, head pair and first query row of a grid point. -/
def batchAt (t : Fin cfg1.N) : Fin 4 := ⟨t.val / 32, by have h : t.val < 128 := t.isLt; omega⟩
def pairAt (t : Fin cfg1.N) : Fin 8 := ⟨t.val / 4 % 8, Nat.mod_lt _ (by norm_num)⟩
def rowAt (t : Fin cfg1.N) (i : Fin 512) : Fin 2048 := ⟨512 * (t.val % 4) + i.val, by have := i.isLt; omega⟩

/-- The query block at (0, i, j). -/
theorem iblk1_0_apply (c : Dev nD) (t : Fin cfg1.N) (i : Fin 512) (j : Fin 128) :
    (iblk1 V c 0 t : Vec Ideal S1x512x128 .bf16) (ix3 (0 : Fin 1) i j)
      = (V c main_v6 : Cert.Spec.Arr3 4 2048 1024) (ix3 (batchAt t) (rowAt t i) (blockCol (pairAt t) j)) := by
  obtain ⟨e0, e1, e2, -⟩ := index_facts1 t
  unfold iblk1
  rw [View.read_apply]
  show V c main_v6 _ = V c main_v6 _
  refine congrArg (V c main_v6) ?_
  funext a
  apply Fin.ext
  match a with
  | ⟨0, _⟩ => show win1_0.index t (0 : Fin 3) * 1 + 1 * 0 = t.val / 32; rw [e0]; omega
  | ⟨1, _⟩ => show win1_0.index t (1 : Fin 3) * 512 + 1 * i.val = 512 * (t.val % 4) + i.val; rw [e1]; omega
  | ⟨2, _⟩ => show win1_0.index t (2 : Fin 3) * 128 + 1 * j.val = 128 * (t.val / 4 % 8) + j.val; rw [e2]; omega

/-- The key slab at (0, k, j). -/
theorem iblk1_1_apply (c : Dev nD) (t : Fin cfg1.N) (k : Fin 2048) (j : Fin 128) :
    (iblk1 V c 1 t : Vec Ideal S1x2048x128 .bf16) (ix3 (0 : Fin 1) k j)
      = (V c main_v7 : Cert.Spec.Arr3 4 2048 1024) (ix3 (batchAt t) k (blockCol (pairAt t) j)) := by
  obtain ⟨-, -, -, e0, e1, e2, -⟩ := index_facts1 t
  unfold iblk1
  rw [View.read_apply]
  show V c main_v7 _ = V c main_v7 _
  refine congrArg (V c main_v7) ?_
  funext a
  apply Fin.ext
  match a with
  | ⟨0, _⟩ => show win1_1.index t (0 : Fin 3) * 1 + 1 * 0 = t.val / 32; rw [e0]; omega
  | ⟨1, _⟩ => show win1_1.index t (1 : Fin 3) * 2048 + 1 * k.val = k.val; rw [e1]; omega
  | ⟨2, _⟩ => show win1_1.index t (2 : Fin 3) * 128 + 1 * j.val = 128 * (t.val / 4 % 8) + j.val; rw [e2]; omega

/-- The value slab at (0, k, j). -/
theorem iblk1_2_apply (c : Dev nD) (t : Fin cfg1.N) (k : Fin 2048) (j : Fin 128) :
    (iblk1 V c 2 t : Vec Ideal S1x2048x128 .bf16) (ix3 (0 : Fin 1) k j)
      = (V c main_v8 : Cert.Spec.Arr3 4 2048 1024) (ix3 (batchAt t) k (blockCol (pairAt t) j)) := by
  obtain ⟨-, -, -, -, -, -, e0, e1, e2, -⟩ := index_facts1 t
  unfold iblk1
  rw [View.read_apply]
  show V c main_v8 _ = V c main_v8 _
  refine congrArg (V c main_v8) ?_
  funext a
  apply Fin.ext
  match a with
  | ⟨0, _⟩ => show win1_2.index t (0 : Fin 3) * 1 + 1 * 0 = t.val / 32; rw [e0]; omega
  | ⟨1, _⟩ => show win1_2.index t (1 : Fin 3) * 2048 + 1 * k.val = k.val; rw [e1]; omega
  | ⟨2, _⟩ => show win1_2.index t (2 : Fin 3) * 128 + 1 * j.val = 128 * (t.val / 4 % 8) + j.val; rw [e2]; omega

/-- What a grid point writes back is its block of the attention array. -/
theorem flushed1_3_eq (c : Dev nD) (t : Fin cfg1.N) :
    (dat1 (F := Ideal) V c).flushed 3 t
      = ((cfg1.win 3).blk t).view.read (Elt Ideal) (Cert.Spec.attnK Cert.Spec.scK (V c main_v6) (V c main_v7) (V c main_v8)) := by
  obtain ⟨-, -, -, -, -, -, -, -, -, e0, e1, e2⟩ := index_facts1 t
  show (cfg1.win 3).cut (grid1.coords t) ((dat1 (F := Ideal) V c).after 3 t) = _
  rw [after1_3]
  funext y
  rw [View.read_apply]
  show out1_3 (iblk1 V c 0 t) (iblk1 V c 1 t) (iblk1 V c 2 t) y
    = Cert.Spec.attnK Cert.Spec.scK (V c main_v6) (V c main_v7) (V c main_v8) (((cfg1.win 3).blk t).view.emb y)
  refine (out1_3_apply (V c main_v6) (V c main_v7) (V c main_v8) (batchAt t) (pairAt t) (rowAt t)
    (iblk1 V c 0 t) (iblk1 V c 1 t) (iblk1 V c 2 t) (iblk1_0_apply V c t) (iblk1_1_apply V c t) (iblk1_2_apply V c t) y).trans ?_
  refine congrArg (Cert.Spec.attnK Cert.Spec.scK (V c main_v6) (V c main_v7) (V c main_v8)) ?_
  have h0 : (y 0).val < 1 := (y 0).isLt
  funext a
  apply Fin.ext
  match a with
  | ⟨0, _⟩ => show t.val / 32 = win1_3.index t (0 : Fin 3) * 1 + 1 * (y 0).val; rw [e0]; omega
  | ⟨1, _⟩ => show 512 * (t.val % 4) + (y 1).val = win1_3.index t (1 : Fin 3) * 512 + 1 * (y 1).val; rw [e1]; omega
  | ⟨2, _⟩ => show 128 * (t.val / 4 % 8) + (y 2).val = win1_3.index t (2 : Fin 3) * 128 + 1 * (y 2).val; rw [e2]; omega

/-- An index of the result is in a point's block iff each coordinate is in the block's range on its axis. -/
theorem mem_blk1_3 (t : Fin cfg1.N) (i : S4x2048x1024.Idx) :
    i ∈ ((cfg1.win 3).blk t).view.set
      ↔ ∀ a : Fin 3, win1_3.index t a * S1x512x128.size a ≤ (i a).val ∧ (i a).val < win1_3.index t a * S1x512x128.size a + S1x512x128.size a := by
  show i ∈ ((View.whole main_v9).slice (win1_3.rect t)).set ↔ _
  rw [View.set_slice_whole, Rect.mem_set_unit]
  exact Iff.rfl

/-- Every index of the result is in the block of the point with its batch entry, its column's head pair and its row's
    query block, and every point writes back. -/
theorem cover1_3_array (i : S4x2048x1024.Idx) :
    ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  have hN : cfg1.N = 128 := rfl
  refine ⟨⟨32 * (i 0).val + 4 * ((i 2).val / 128) + (i 1).val / 512, by rw [hN]; omega⟩, flush1_3 _, ?_⟩
  rw [mem_blk1_3]
  obtain ⟨-, -, -, -, -, -, -, -, -, e0, e1, e2⟩ :=
    index_facts1 ⟨32 * (i 0).val + 4 * ((i 2).val / 128) + (i 1).val / 512, by rw [hN]; omega⟩
  intro a
  match a with
  | ⟨0, _⟩ =>
    show win1_3.index _ (0 : Fin 3) * 1 ≤ (i 0).val ∧ (i 0).val < win1_3.index _ (0 : Fin 3) * 1 + 1
    rw [e0]
    show (32 * (i 0).val + 4 * ((i 2).val / 128) + (i 1).val / 512) / 32 * 1 ≤ (i 0).val
      ∧ (i 0).val < (32 * (i 0).val + 4 * ((i 2).val / 128) + (i 1).val / 512) / 32 * 1 + 1
    omega
  | ⟨1, _⟩ =>
    show win1_3.index _ (1 : Fin 3) * 512 ≤ (i 1).val ∧ (i 1).val < win1_3.index _ (1 : Fin 3) * 512 + 512
    rw [e1]
    show (32 * (i 0).val + 4 * ((i 2).val / 128) + (i 1).val / 512) % 4 * 512 ≤ (i 1).val
      ∧ (i 1).val < (32 * (i 0).val + 4 * ((i 2).val / 128) + (i 1).val / 512) % 4 * 512 + 512
    omega
  | ⟨2, _⟩ =>
    show win1_3.index _ (2 : Fin 3) * 128 ≤ (i 2).val ∧ (i 2).val < win1_3.index _ (2 : Fin 3) * 128 + 128
    rw [e2]
    show (32 * (i 0).val + 4 * ((i 2).val / 128) + (i 1).val / 512) / 4 % 8 * 128 ≤ (i 2).val
      ∧ (i 2).val < (32 * (i 0).val + 4 * ((i 2).val / 128) + (i 1).val / 512) / 4 % 8 * 128 + 128
    omega

/-- The attention call's result array after the run. -/
theorem final1_3 (c : Dev nD) :
    (dat1 (F := Ideal) V c).arrAt 3 cfg1.N = Cert.Spec.attnK Cert.Spec.scK (V c main_v6) (V c main_v7) (V c main_v8) :=
  (dat1 (F := Ideal) V c).arrAt_eq_of_cover 3 (Cert.Spec.attnK Cert.Spec.scK (V c main_v6) (V c main_v7) (V c main_v8))
    (fun t _ => flushed1_3_eq V c t) cover1_3_array

end Cert.KernelIdeal.Hand

end
-- ==== Proof.IdealR2Value.lean ====
import proofs.«135862_j34411277975788_2_alg».proof.Proof.IdealR2Defs
import proofs.«135862_j34411277975788_2_alg».proof.Proof.Spec
import proofs.«135862_j34411277975788_2_alg».proof.Proof.LibRowColDot
import proofs.«135862_j34411277975788_2_alg».proof.Proof.LibRowBroadcast
import Idealize.ShloMosaic.Lib.Pipeline.Value

/-!
# The output projection's result array, on the extended reals

The third call walks 16 row blocks. At block `t` the body multiplies rows `512 t … 512 t + 511` of the head matrix by the
whole weight matrix, adds the bias row to every row, and the pipeline writes the product back to the same rows of the result.
Entry `(r, j)` of the result is therefore `Σ_k X[r,k] · W[k,j] + B[0,j]`, the specification's `proj 1024 0`.

Order of the file: the two kept coordinates of the matrix product's dimension numbers; the body's stored value at an entry
(a matrix product into the zero accumulator is a sum over the contracted axis; a one-row array repeated along the rows reads
its row); where each window's block sits in its array (a block's coordinate is block index × block size + the coordinate
inside the block); what grid point `t` writes back; every row `r` lies in block `r / 512`; the whole array.
No finiteness is used: both sides are the same sum.
-/

noncomputable section
namespace Cert.KernelIdeal.Hand
open Idealize.ShloMosaic Idealize.ShloMosaic.TcCoe Idealize.SL.Sem
open Idealize.ShloMosaic.Pipeline (Dat)
open Idealize.ShloMosaic.ValueIdx
open Cert.KernelIdeal Cert.KernelIdeal.Gen

/-! ## The body's stored value at an entry -/

/-- The left operand's kept coordinate is the output's row. -/
theorem dot2_l0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- The right operand's kept coordinate is the output's column. -/
theorem dot2_r1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The body's stored value at entry (p, q): row p of the left block against column q of the weights, plus the bias at q. -/
theorem pay2_at (x0 : Vec Ideal S512x1024 .bf16) (x1 : Vec Ideal S1024x1024 .bf16) (x2 : Vec Ideal S1x1024 .f32)
    (p : Fin 512) (q : Fin 1024) :
    k2_pay1 (F := Ideal) x0 x1 x2 (ix2 p q)
      = (∑ k : Fin 1024, x0 (ix2 p k) * x1 (ix2 k q)) + x2 (ix2 (0 : Fin 1) q) := by
  unfold k2_pay1
  simp only [shapeCast_self]
  refine (addf_apply _ _ _).trans ?_
  refine congrArg₂ (· + ·) ?_ ?_
  · exact Cert.RowColDot.matmul_rowcol dot_S512x1024_S1024x1024_S512x1024_1_0_0_1_n_n rfl rfl rfl rfl dot2_l0 dot2_r1 none x0 x1 (ix2 p q)
  · exact Cert.RowBroadcast.row_broadcast_apply x2 broadcasts_S1x1024_S512x1024 p q

/-! ## Where each window's block sits in its array -/

section
variable (V : (c : Dev nD) → (b : Ref sig .tc) → Buf (Elt Ideal) ((c : Thread nD τ).loc b))

theorem zeros2 : (![0, 0] : Fin 2 → Nat) = fun _ => 0 :=
  funext fun a => match a with | ⟨0, _⟩ => rfl | ⟨1, _⟩ => rfl

/-- The printed index maps over the grid: the head rows' and the result's block index is the grid point on the row axis, and
    every other block index is zero. -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the head rows' block at grid point t is entry (512 t + p, k) of the head matrix. -/
theorem iblk2_0_at (c : Dev nD) (t : Fin cfg2.N) (p : Fin 512) (k : Fin 1024) (r : Fin 8192) (hr : r.val = 512 * t.val + p.val) :
    (iblk2 V c 0 t : Vec Ideal S512x1024 .bf16) (ix2 p k) = (V c main_v10 : S8192x1024.Idx → EReal) (ix2 r k) := by
  obtain ⟨e0, e1, -⟩ := index2 t
  unfold iblk2
  rw [View.read_apply]
  show V c main_v10 _ = V c main_v10 _
  refine congrArg (V c main_v10) ?_
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- The weights' block at every grid point is the whole weight matrix. -/
theorem iblk2_1_at (c : Dev nD) (t : Fin cfg2.N) (k : Fin 1024) (q : Fin 1024) :
    (iblk2 V c 1 t : Vec Ideal S1024x1024 .bf16) (ix2 k q) = (V c main_v11 : S1024x1024.Idx → EReal) (ix2 k q) := by
  obtain ⟨-, -, e2, e3, -⟩ := index2 t
  unfold iblk2
  rw [View.read_apply]
  show V c main_v11 _ = V c main_v11 _
  refine congrArg (V c main_v11) ?_
  funext a
  apply Fin.ext
  match a with
  | ⟨0, _⟩ => show win2_1.index t (0 : Fin 2) * 1024 + 1 * k.val = k.val; rw [e2]; omega
  | ⟨1, _⟩ => show win2_1.index t (1 : Fin 2) * 1024 + 1 * q.val = q.val; rw [e3]; omega

/-- The bias row's block at every grid point is the whole row. -/
theorem iblk2_2_at (c : Dev nD) (t : Fin cfg2.N) (q : Fin 1024) :
    (iblk2 V c 2 t : Vec Ideal S1x1024 .f32) (ix2 (0 : Fin 1) q) = (V c main_v12 : S1x1024.Idx → EReal) (ix2 (0 : Fin 1) q) := by
  obtain ⟨-, -, -, -, e4, e5, -⟩ := index2 t
  unfold iblk2
  rw [View.read_apply]
  show V c main_v12 _ = V c main_v12 _
  refine congrArg (V c main_v12) ?_
  funext a
  apply Fin.ext
  match a with
  | ⟨0, _⟩ => show win2_2.index t (0 : Fin 2) * 1 + 1 * 0 = 0; rw [e4]
  | ⟨1, _⟩ => show win2_2.index t (1 : Fin 2) * 1024 + 1 * q.val = q.val; rw [e5]; omega

/-- Entry (p, q) of the result's block at grid point t sits at (512 t + p, q) of the result. -/
theorem emb2_3 (t : Fin cfg2.N) (p : Fin 512) (q : Fin 1024) (r : Fin 8192) (hr : r.val = 512 * t.val + p.val) :
    ((cfg2.win 3).blk t).view.emb (ix2 p q) = (ix2 r q : S8192x1024.Idx) := by
  obtain ⟨-, -, -, -, -, -, e6, e7⟩ := index2 t
  funext a
  apply Fin.ext
  match a with
  | ⟨0, _⟩ => show win2_3.index t (0 : Fin 2) * 512 + 1 * p.val = r.val; rw [e6, hr]; omega
  | ⟨1, _⟩ => show win2_3.index t (1 : Fin 2) * 1024 + 1 * q.val = q.val; rw [e7]; omega

/-- Column `0 + j` is column `j`. -/
theorem col2_zero (h : 0 + 1024 ≤ 1024) (j : Fin 1024) : Cert.Spec.col 1024 0 h j = j :=
  Fin.ext (Nat.zero_add _)

/-! ## What a grid point writes back, and the whole array -/

/-- Grid point t writes back block t of the projection of the three arrays as the call finds them. -/
theorem flushed2_3_eq (c : Dev nD) (t : Fin cfg2.N) :
    (dat2 (F := Ideal) V c).flushed 3 t
      = ((cfg2.win 3).blk t).view.read (Elt Ideal)
          (Cert.Spec.proj 1024 0 (by norm_num) (V c main_v10) (V c main_v11) (V c main_v12)) := by
  show (cfg2.win 3).cut (grid2.coords t) ((dat2 V c).after 3 t) = _
  rw [after2_3]
  unfold out2_3
  rw [View.canon_unit_zero zeros2]
  simp only [View.ld_unit_zero (S := S512x1024) zeros2, View.ld_unit_zero (S := S1024x1024) zeros2,
    View.ld_unit_zero (S := S1x1024) zeros2]
  funext j
  obtain ⟨p, q, rfl⟩ : ∃ (p : Fin 512) (q : Fin 1024), j = ix2 p q := ⟨j 0, j 1, eq_ix2 j⟩
  have hN : cfg2.N = 16 := N_2
  have hr : 512 * t.val + p.val < 8192 := by have := t.isLt; have := p.isLt; omega
  show k2_pay1 (F := Ideal) (iblk2 V c 0 t) (iblk2 V c 1 t) (iblk2 V c 2 t) (ix2 p q)
    = Cert.Spec.proj 1024 0 (by norm_num) (V c main_v10) (V c main_v11) (V c main_v12) (((cfg2.win 3).blk t).view.emb (ix2 p q))
  rw [emb2_3 t p q ⟨512 * t.val + p.val, hr⟩ rfl, Cert.Spec.proj_ix2]
  refine (pay2_at (iblk2 V c 0 t) (iblk2 V c 1 t) (iblk2 V c 2 t) p q).trans ?_
  unfold Cert.Spec.projAt
  rw [col2_zero]
  refine congrArg₂ (· + ·) (Finset.sum_congr rfl fun k _ => congrArg₂ (· * ·) ?_ ?_) ?_
  · exact iblk2_0_at V c t p k _ rfl
  · exact iblk2_1_at V c t k q
  · exact iblk2_2_at V c t q

/-- An index of the result is in grid point t's block iff each coordinate is in the block's range on its axis. -/
theorem mem_blk2_3 (t : Fin cfg2.N) (i : S8192x1024.Idx) :
    i ∈ ((cfg2.win 3).blk t).view.set
      ↔ ∀ a : Fin 2, win2_3.index t a * S512x1024.size a ≤ (i a).val ∧ (i a).val < win2_3.index t a * S512x1024.size a + S512x1024.size a := by
  show i ∈ ((View.whole main_v13).slice (win2_3.rect t)).set ↔ _
  rw [View.set_slice_whole, Rect.mem_set_unit]
  exact Iff.rfl

/-- Row r of the result lies in block r / 512, and every grid point writes back. -/
theorem covered2_3 (i : S8192x1024.Idx) :
    ∃ t : Fin cfg2.N, (cfg2.win 3).flush t = true ∧ i ∈ ((cfg2.win 3).blk t).view.set := by
  have hN : cfg2.N = 16 := N_2
  have hi0 : (i 0).val < 8192 := (i 0).isLt
  have hi1 : (i 1).val < 1024 := (i 1).isLt
  refine ⟨⟨(i 0).val / 512, by omega⟩, flush2_3 _, ?_⟩
  rw [mem_blk2_3]
  obtain ⟨-, -, -, -, -, -, e6, e7⟩ := index2 ⟨(i 0).val / 512, by omega⟩
  intro a
  match a with
  | ⟨0, _⟩ =>
    show win2_3.index ⟨(i 0).val / 512, _⟩ (0 : Fin 2) * 512 ≤ (i 0).val ∧ (i 0).val < win2_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win2_3.index ⟨(i 0).val / 512, _⟩ (1 : Fin 2) * 1024 ≤ (i 1).val ∧ (i 1).val < win2_3.index ⟨(i 0).val / 512, _⟩ (1 : Fin 2) * 1024 + 1024
    rw [e7]; omega

/-- The result array after the call: the projection of the head matrix by the weights and the bias row. -/
theorem final2_3 (c : Dev nD) :
    (dat2 (F := Ideal) V c).arrAt 3 cfg2.N = Cert.Spec.proj 1024 0 (by norm_num) (V c main_v10) (V c main_v11) (V c main_v12) :=
  (dat2 (F := Ideal) V c).arrAt_eq_of_cover 3 _ (fun t _ => flushed2_3_eq V c t) covered2_3

end

end Cert.KernelIdeal.Hand
end
-- ==== Proof.IdealValue.lean ====
/-
  What the kernel program returns, as one function of its nine arguments.

  Each call's result arrays are closed-form functions of its operand arrays as it finds them; each operand array is a
  re-laying of an argument or of an earlier call's result. Chaining the three calls through the four host stretches, the
  array @main returns is the specification's kernel arrangement of the nine arguments as launched: the fused projection of the
  flattened input against the joined weights, its three column bands regrouped by batch entry, attention with one division
  per entry, and the output projection of the flattened heads, regrouped by batch entry.
-/
import proofs.«135862_j34411277975788_2_alg».proof.Proof.IdealHost
import proofs.«135862_j34411277975788_2_alg».proof.Proof.IdealR0Value
import proofs.«135862_j34411277975788_2_alg».proof.Proof.IdealR1Value
import proofs.«135862_j34411277975788_2_alg».proof.Proof.IdealR2Value
import proofs.«135862_j34411277975788_2_alg».proof.Proof.Spec

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ)

/-- What @main returns is the kernel arrangement of the specification, of the nine arguments as launched. -/
theorem kernel_value (c : Dev nD) : W7 m c (Proc.devRef .tc main_v14)
    = kernelOut scK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  have q : U2 m c main_v5_0 = proj 3072 0 (by norm_num) (U1 m c main_v4) (U1 m c main_v1) (U1 m c main_v3) :=
    (W2_arr m c 3).trans (final0_3 (U1 m) c)
  have k : U2 m c main_v5_1 = proj 3072 1024 (by norm_num) (U1 m c main_v4) (U1 m c main_v1) (U1 m c main_v3) :=
    (W2_arr m c 4).trans (final0_4 (U1 m) c)
  have v : U2 m c main_v5_2 = proj 3072 2048 (by norm_num) (U1 m c main_v4) (U1 m c main_v1) (U1 m c main_v3) :=
    (W2_arr m c 5).trans (final0_5 (U1 m) c)
  have a : U4 m c main_v9 = attnK scK (U3 m c main_v6) (U3 m c main_v7) (U3 m c main_v8) :=
    (W4_arr m c 3).trans (final1_3 (U3 m) c)
  have z : U6 m c main_v13 = proj 1024 0 (by norm_num) (U5 m c main_v10) (U5 m c main_v11) (U5 m c main_v12) :=
    (W6_arr m c 3).trans (final2_3 (U5 m) c)
  rw [result_eq, z, entry2_rows, entry2_wts, entry2_bias, a, entry1_q, entry1_k, entry1_v, q, k, v, entry0_rows, entry0_wts, entry0_bias]
  rfl

end Cert.KernelIdeal.Hand

end
-- ==== Proof.RefValue.lean ====
/-
  The einsum / softmax reference read entry by entry.

  Each stage of the reference is identified, at explicit coordinates, with the matching entry-wise function of the
  specification: the three projections Σ_k x[b,s,k]·W[k,j] + bias[j]; their split into 16 heads of 64 lanes (head h,
  lane d is column 64h + d); the scaled scores; the row maximum as a fold of max from ⊥; the softmax numerators and
  their row total; the normalized weights contracted with the values; the heads merged back (column j is head j / 64,
  lane j % 64); and the output projection. Both sides are the same arrangement of the same operations, so no law of
  arithmetic is used beyond 0 + x = x and max ⊥ x = x, and no finiteness is needed.
-/
import proofs.«135862_j34411277975788_2_alg».proof.Proof.Gen.ReferenceIdeal.Read
import proofs.«135862_j34411277975788_2_alg».proof.Proof.Spec
import proofs.«135862_j34411277975788_2_alg».proof.Proof.LibRealSums

noncomputable section
open scoped BigOperators

namespace Cert.ReferenceIdeal.RefValue

open Idealize.ShloMosaic Idealize.ShloMosaic.ValueIdx Cert.Spec Cert.ReferenceIdeal Cert.ReferenceIdeal.Gen Cert.ReferenceIdeal.Read

/-- The projection: matrix product over the 1024 input features plus the broadcast bias. -/
theorem proj_eq (x : Arr3 4 2048 1024) (W : Arr2 1024 1024) (bias : Arr1 1024) :
    val_main_v3 (F := Ideal) x W bias = proj3 x W bias := by
  funext i
  obtain ⟨b, s, j, rfl⟩ : ∃ (b : Fin 4) (s : Fin 2048) (j : Fin 1024), i = ix3 b s j := ⟨i 0, i 1, i 2, eq_ix3 i⟩
  have el : ∀ k : Fin 1024, lidx_main_v0 (ix3 b s j) k = ix3 b s k := fun k =>
    funext fun a => Fin.ext (by match a with | ⟨0, _⟩ => rfl | ⟨1, _⟩ => rfl | ⟨2, _⟩ => rfl)
  have er : ∀ k : Fin 1024, ridx_main_v0 (ix3 b s j) k = ix2 k j := fun k =>
    funext fun a => Fin.ext (by match a with | ⟨0, _⟩ => rfl | ⟨1, _⟩ => rfl)
  have eb : idx_main_v1 (idx_main_v2 (ix3 b s j)) = ix1 j :=
    funext fun a => Fin.ext (by match a with | ⟨0, _⟩ => rfl)
  rw [val_main_v3_apply, val_main_v0_apply, val_main_v2_apply, val_main_v1_apply, eb, proj3_ix3]
  simp only [el, er]
  rfl

/-- The reshape [4,2048,1024] → [4,2048,16,64] followed by the swap of axes 1 and 2, read at (b, h, s, d):
    the projection's entry (b, s, 64h + d). The three head-split stages share this reading. -/
theorem split_idx (b : Fin 4) (h : Fin 16) (s : Fin 2048) (d : Fin 64) :
    idx_main_v4 (idx_main_v5 (ix4 b h s d)) = ix3 b s (hcol h d) := by
  have hb := b.isLt; have hh := h.isLt; have hs := s.isLt; have hd := d.isLt
  funext a
  apply Fin.ext
  match a with
  | ⟨0, _⟩ =>
    show (((b.val * 2048 + s.val) * 16 + h.val) * 64 + d.val) / 2097152 = b.val
    omega
  | ⟨1, _⟩ =>
    show (((b.val * 2048 + s.val) * 16 + h.val) * 64 + d.val) / 1024 % 2048 = s.val
    omega
  | ⟨2, _⟩ =>
    show (((b.val * 2048 + s.val) * 16 + h.val) * 64 + d.val) % 1024 = 64 * h.val + d.val
    omega

theorem headQ (x : Arr3 4 2048 1024) (W : Arr2 1024 1024) (bias : Arr1 1024) (b : Fin 4) (h : Fin 16) (s : Fin 2048) (d : Fin 64) :
    val_main_v5 (F := Ideal) x W bias (ix4 b h s d) = proj3 x W bias (ix3 b s (hcol h d)) := by
  rw [val_main_v5_apply, val_main_v4_apply, split_idx, proj_eq]

theorem headK (x : Arr3 4 2048 1024) (W : Arr2 1024 1024) (bias : Arr1 1024) (b : Fin 4) (h : Fin 16) (s : Fin 2048) (d : Fin 64) :
    val_main_v11 (F := Ideal) x W bias (ix4 b h s d) = proj3 x W bias (ix3 b s (hcol h d)) := by
  rw [val_main_v11_apply, val_main_v10_apply]
  exact congrArg (val_main_v9 (F := Ideal) x W bias) (split_idx b h s d) |>.trans (congrFun (proj_eq x W bias) _)

theorem headV (x : Arr3 4 2048 1024) (W : Arr2 1024 1024) (bias : Arr1 1024) (b : Fin 4) (h : Fin 16) (s : Fin 2048) (d : Fin 64) :
    val_main_v17 (F := Ideal) x W bias (ix4 b h s d) = proj3 x W bias (ix3 b s (hcol h d)) := by
  rw [val_main_v17_apply, val_main_v16_apply]
  exact congrArg (val_main_v15 (F := Ideal) x W bias) (split_idx b h s d) |>.trans (congrFun (proj_eq x W bias) _)

/-- The printed scale 1.0 / sqrt(64.0). -/
theorem scale_eq (i : S_.Idx) : val_main_v19 (F := Ideal) i = scR := rfl

/-- The scaled scores: the contraction over a head's 64 lanes, times the scale. -/
theorem score_eq (x0 : Arr3 4 2048 1024) (x1 : Arr2 1024 1024) (x2 : Arr1 1024) (x3 : Arr2 1024 1024) (x4 : Arr1 1024)
    (b : Fin 4) (h : Fin 16) (q k : Fin 2048) :
    val_main_v22 (F := Ideal) x0 x1 x2 x3 x4 (ix4 b h q k) = score scR (proj3 x0 x1 x2) (proj3 x0 x3 x4) b h q k := by
  have el : ∀ d : Fin 64, lidx_main_v20 (ix4 b h q k) d = ix4 b h q d := fun d =>
    funext fun a => Fin.ext (by match a with | ⟨0, _⟩ => rfl | ⟨1, _⟩ => rfl | ⟨2, _⟩ => rfl | ⟨3, _⟩ => rfl)
  have er : ∀ d : Fin 64, ridx_main_v20 (ix4 b h q k) d = ix4 b h k d := fun d =>
    funext fun a => Fin.ext (by match a with | ⟨0, _⟩ => rfl | ⟨1, _⟩ => rfl | ⟨2, _⟩ => rfl | ⟨3, _⟩ => rfl)
  rw [val_main_v22_apply, val_main_v20_apply, val_main_v21_apply, scale_eq]
  simp only [el, er, headQ, headK]
  rfl

/-- Row (b, h, q) with the key coordinate put back is (b, h, q, k). -/
theorem lift_key (hr : S4x16x2048x2048.Reduces [3] S4x16x2048) (b : Fin 4) (h : Fin 16) (q : Fin 2048)
    (k : Fin (S4x16x2048x2048.size 3)) : hr.lift (ix3 b h q) k = ix4 b h q (⟨k.val, k.isLt⟩ : Fin 2048) := by
  funext c; apply Fin.ext
  fin_cases c <;> rfl

/-- The row maximum: the max-reduce over the key axis from −∞ is the fold of max from ⊥ over the row's scores,
    and the further maximum against the broadcast −∞ changes nothing. -/
theorem rowMax_eq (x0 : Arr3 4 2048 1024) (x1 : Arr2 1024 1024) (x2 : Arr1 1024) (x3 : Arr2 1024 1024) (x4 : Arr1 1024)
    (b : Fin 4) (h : Fin 16) (q : Fin 2048) :
    val_main_v25 (F := Ideal) x0 x1 x2 x3 x4 (ix3 b h q) = rowMax scR (proj3 x0 x1 x2) (proj3 x0 x3 x4) b h q := by
  have hr : S4x16x2048x2048.Reduces [3] S4x16x2048 := by decide
  have hf : (val_main_v22 (F := Ideal) x0 x1 x2 x3 x4 ∘ hr.lift (ix3 b h q))
      = fun k : Fin 2048 => score scR (proj3 x0 x1 x2) (proj3 x0 x3 x4) b h q k :=
    funext fun k => (congrArg (val_main_v22 (F := Ideal) x0 x1 x2 x3 x4) (lift_key hr b h q k)).trans
      (score_eq x0 x1 x2 x3 x4 b h q _)
  have h23 : val_main_v23 (F := Ideal) x0 x1 x2 x3 x4 (ix3 b h q)
      = rowMax scR (proj3 x0 x1 x2) (proj3 x0 x3 x4) b h q := by
    unfold val_main_v23
    refine (Host.reduce_eq_fold_single FloatOps.maximumf _ _ reducesTo_S4x16x2048x2048_S4x16x2048_d3 hr h_S_ (ix3 b h q)).trans ?_
    show (Finset.univ : Finset (Fin 2048)).fold max (Ideal.ofBits .f32 0xFF800000#32)
      (val_main_v22 (F := Ideal) x0 x1 x2 x3 x4 ∘ hr.lift (ix3 b h q)) = _
    rw [hf, Cert.Math.ofBits_neg_inf]
    rfl
  rw [val_main_v25_apply, h23]
  show max (Ideal.ofBits .f32 0xFF800000#32) _ = _
  rw [Cert.Math.ofBits_neg_inf]
  exact max_bot_left _

/-- The softmax numerator: e^(score − row maximum), the maximum read through its two keepdims broadcasts. -/
theorem wgt_eq (x0 : Arr3 4 2048 1024) (x1 : Arr2 1024 1024) (x2 : Arr1 1024) (x3 : Arr2 1024 1024) (x4 : Arr1 1024)
    (b : Fin 4) (h : Fin 16) (q k : Fin 2048) :
    val_main_v29 (F := Ideal) x0 x1 x2 x3 x4 (ix4 b h q k) = wgt scR (proj3 x0 x1 x2) (proj3 x0 x3 x4) b h q k := by
  have e : idx_main_v26 (idx_main_v27 (ix4 b h q k)) = ix3 b h q :=
    funext fun a => Fin.ext (by match a with | ⟨0, _⟩ => rfl | ⟨1, _⟩ => rfl | ⟨2, _⟩ => rfl)
  rw [val_main_v29_apply, val_main_v28_apply, val_main_v27_apply, val_main_v26_apply, e, rowMax_eq, score_eq]
  rfl

/-- The row total of the numerators: the add-reduce over the key axis from the zero word. -/
theorem wsum_eq (x0 : Arr3 4 2048 1024) (x1 : Arr2 1024 1024) (x2 : Arr1 1024) (x3 : Arr2 1024 1024) (x4 : Arr1 1024)
    (b : Fin 4) (h : Fin 16) (q : Fin 2048) :
    val_main_v30 (F := Ideal) x0 x1 x2 x3 x4 (ix3 b h q) = wsum scR (proj3 x0 x1 x2) (proj3 x0 x3 x4) b h q := by
  have e : ∀ k : Fin 2048, idx_main_v30 (ix3 b h q) k = ix4 b h q k := fun k =>
    funext fun a => Fin.ext (by match a with | ⟨0, _⟩ => rfl | ⟨1, _⟩ => rfl | ⟨2, _⟩ => rfl | ⟨3, _⟩ => rfl)
  rw [val_main_v30_apply, val_main_cst_3_apply]
  simp only [e, wgt_eq]
  show Ideal.ofBits .f32 0x00000000#32 + _ = _
  rw [Ideal.ofBits_zero_f32, zero_add]
  rfl

/-- The normalized weight: the numerator divided by the row total, the total read through its two keepdims broadcasts. -/
theorem nwgt_eq (x0 : Arr3 4 2048 1024) (x1 : Arr2 1024 1024) (x2 : Arr1 1024) (x3 : Arr2 1024 1024) (x4 : Arr1 1024)
    (b : Fin 4) (h : Fin 16) (q k : Fin 2048) :
    val_main_v33 (F := Ideal) x0 x1 x2 x3 x4 (ix4 b h q k)
      = Ideal.div (wgt scR (proj3 x0 x1 x2) (proj3 x0 x3 x4) b h q k) (wsum scR (proj3 x0 x1 x2) (proj3 x0 x3 x4) b h q) := by
  have e : idx_main_v31 (idx_main_v32 (ix4 b h q k)) = ix3 b h q :=
    funext fun a => Fin.ext (by match a with | ⟨0, _⟩ => rfl | ⟨1, _⟩ => rfl | ⟨2, _⟩ => rfl)
  rw [val_main_v33_apply, val_main_v32_apply, val_main_v31_apply, e, wsum_eq, wgt_eq]
  rfl

/-- One head's output: the normalized weights contracted with the head's values over the key axis. -/
theorem attn_eq (x0 : Arr3 4 2048 1024) (x1 : Arr2 1024 1024) (x2 : Arr1 1024) (x3 : Arr2 1024 1024) (x4 : Arr1 1024)
    (x5 : Arr2 1024 1024) (x6 : Arr1 1024) (b : Fin 4) (h : Fin 16) (q : Fin 2048) (d : Fin 64) :
    val_main_v34 (F := Ideal) x0 x1 x2 x3 x4 x5 x6 (ix4 b h q d)
      = attnAtR scR (proj3 x0 x1 x2) (proj3 x0 x3 x4) (proj3 x0 x5 x6) b q h d := by
  have el : ∀ k : Fin 2048, lidx_main_v34 (ix4 b h q d) k = ix4 b h q k := fun k =>
    funext fun a => Fin.ext (by match a with | ⟨0, _⟩ => rfl | ⟨1, _⟩ => rfl | ⟨2, _⟩ => rfl | ⟨3, _⟩ => rfl)
  have er : ∀ k : Fin 2048, ridx_main_v34 (ix4 b h q d) k = ix4 b h k d := fun k =>
    funext fun a => Fin.ext (by match a with | ⟨0, _⟩ => rfl | ⟨1, _⟩ => rfl | ⟨2, _⟩ => rfl | ⟨3, _⟩ => rfl)
  rw [val_main_v34_apply]
  simp only [el, er, nwgt_eq, headV]
  rfl

/-- The swap of axes 1 and 2 followed by the reshape [4,2048,16,64] → [4,2048,1024], read at (b, s, j):
    head j / 64, lane j % 64. -/
theorem merge_idx (b : Fin 4) (s : Fin 2048) (j : Fin 1024) :
    idx_main_v35 (idx_main_v36 (ix3 b s j)) = ix4 b (headOf j) s (laneOf j) := by
  have hb := b.isLt; have hs := s.isLt; have hj := j.isLt
  funext a
  apply Fin.ext
  match a with
  | ⟨0, _⟩ =>
    show ((b.val * 2048 + s.val) * 1024 + j.val) / 2097152 = b.val
    omega
  | ⟨1, _⟩ =>
    show ((b.val * 2048 + s.val) * 1024 + j.val) / 64 % 16 = j.val / 64
    omega
  | ⟨2, _⟩ =>
    show ((b.val * 2048 + s.val) * 1024 + j.val) / 1024 % 2048 = s.val
    omega
  | ⟨3, _⟩ =>
    show ((b.val * 2048 + s.val) * 1024 + j.val) % 64 = j.val % 64
    omega

/-- The heads merged back into 1024 columns: the attention array in the reference's order. -/
theorem merged_eq (x0 : Arr3 4 2048 1024) (x1 : Arr2 1024 1024) (x2 : Arr1 1024) (x3 : Arr2 1024 1024) (x4 : Arr1 1024)
    (x5 : Arr2 1024 1024) (x6 : Arr1 1024) :
    val_main_v36 (F := Ideal) x0 x1 x2 x3 x4 x5 x6 = attnR scR (proj3 x0 x1 x2) (proj3 x0 x3 x4) (proj3 x0 x5 x6) := by
  funext i
  obtain ⟨b, s, j, rfl⟩ : ∃ (b : Fin 4) (s : Fin 2048) (j : Fin 1024), i = ix3 b s j := ⟨i 0, i 1, i 2, eq_ix3 i⟩
  rw [val_main_v36_apply, val_main_v35_apply, merge_idx, attn_eq, attnR_ix3]

/-- The reference program's result: the output projection of the merged heads. -/
theorem ref_eq (x0 : Arr3 4 2048 1024) (x1 : Arr2 1024 1024) (x2 : Arr1 1024) (x3 : Arr2 1024 1024) (x4 : Arr1 1024)
    (x5 : Arr2 1024 1024) (x6 : Arr1 1024) (x7 : Arr2 1024 1024) (x8 : Arr1 1024) :
    Cert.ReferenceIdeal.Read.val_main_v40 (F := Ideal) x0 x1 x2 x3 x4 x5 x6 x7 x8 = refOut scR x0 x1 x2 x3 x4 x5 x6 x7 x8 := by
  funext i
  obtain ⟨b, s, j, rfl⟩ : ∃ (b : Fin 4) (s : Fin 2048) (j : Fin 1024), i = ix3 b s j := ⟨i 0, i 1, i 2, eq_ix3 i⟩
  have el : ∀ k : Fin 1024, lidx_main_v37 (ix3 b s j) k = ix3 b s k := fun k =>
    funext fun a => Fin.ext (by match a with | ⟨0, _⟩ => rfl | ⟨1, _⟩ => rfl | ⟨2, _⟩ => rfl)
  have er : ∀ k : Fin 1024, ridx_main_v37 (ix3 b s j) k = ix2 k j := fun k =>
    funext fun a => Fin.ext (by match a with | ⟨0, _⟩ => rfl | ⟨1, _⟩ => rfl)
  have eb : idx_main_v38 (idx_main_v39 (ix3 b s j)) = ix1 j :=
    funext fun a => Fin.ext (by match a with | ⟨0, _⟩ => rfl)
  rw [val_main_v40_apply, val_main_v37_apply, val_main_v39_apply, val_main_v38_apply, eb, merged_eq]
  unfold refOut
  rw [proj3_ix3]
  simp only [el, er]
  rfl

end Cert.ReferenceIdeal.RefValue

end
-- ==== Proof.Bridge.lean ====
/-
  The two arrangements of the specification agree on real inputs.

  * The scales: the f32 word 0x3E000000 is 1/8, and 1 / √64 = 1/8 since √64 = 8.
  * The fused projection against the three weight matrices side by side, read band by band and regrouped by batch entry, is the
    three separate projections: column off + j of the joined matrix is column j of the matrix that band came from, and row
    2048·b + s of the flattened input is row s of batch entry b. The same regrouping identifies the output projections.
    Neither needs finiteness: the sums are the same sums.
  * Attention: with real queries and keys every score is real, so in every query row no score is +∞ and the first is not −∞;
    with real values the normalisation by the row total can then be moved across the weighted sum.
  * A projection of real arrays is real: a finite sum of products of reals plus a real.
-/
import proofs.«135862_j34411277975788_2_alg».proof.Proof.Spec
import proofs.«135862_j34411277975788_2_alg».proof.Proof.LibRealSums
import Mathlib.Analysis.SpecialFunctions.Sqrt

noncomputable section

open scoped BigOperators

namespace Cert.Bridge

open Idealize.ShloMosaic Idealize.ShloMosaic.ValueIdx Cert.Spec Cert.Math

/-! ## The scales -/

theorem ofBits_eighth : Ideal.ofBits .f32 0x3E000000#32 = ((1 / 8 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem sqrt_sixtyfour : Real.sqrt 64 = 8 := by
  rw [show (64 : ℝ) = 8 ^ 2 by norm_num]; exact Real.sqrt_sq (by norm_num)

/-- The reference's 1 / √64 is the kernel's 0.125. -/
theorem scR_eq_scK : scR = scK := by
  unfold scR scK
  rw [ofBits_one, ofBits_sixtyfour, ofBits_eighth, Ideal.sqrt_coe, if_neg (by norm_num), sqrt_sixtyfour,
    Ideal.div_coe (by norm_num : (8 : ℝ) ≠ 0), ← EReal.coe_mul]
  norm_num

theorem isReal_scK : IsReal scK := ⟨1 / 8, ofBits_eighth⟩

/-! ## Realness -/

theorem isReal_proj3At (x : Arr3 4 2048 1024) (W : Arr2 1024 1024) (bias : Arr1 1024)
    (hx : ∀ i, IsReal (x i)) (hW : ∀ i, IsReal (W i)) (hb : ∀ i, IsReal (bias i)) (b : Fin 4) (s : Fin 2048) (j : Fin 1024) :
    IsReal (proj3At x W bias b s j) :=
  IsReal.add (IsReal.sum _ _ (fun k _ => IsReal.mul (hx _) (hW _))) (hb _)

theorem isReal_proj3 (x : Arr3 4 2048 1024) (W : Arr2 1024 1024) (bias : Arr1 1024)
    (hx : ∀ i, IsReal (x i)) (hW : ∀ i, IsReal (W i)) (hb : ∀ i, IsReal (bias i)) (i : (⟨3, ![4, 2048, 1024]⟩ : Shape).Idx) :
    IsReal (proj3 x W bias i) :=
  isReal_proj3At x W bias hx hW hb (i 0) (i 1) (i 2)

theorem isReal_score (sc : EReal) (Q K : Arr3 4 2048 1024) (hsc : IsReal sc) (hQ : ∀ i, IsReal (Q i)) (hK : ∀ i, IsReal (K i))
    (b : Fin 4) (H : Fin 16) (q k : Fin 2048) : IsReal (score sc Q K b H q k) :=
  IsReal.mul (IsReal.sum _ _ (fun d _ => IsReal.mul (hQ _) (hK _))) hsc

/-! ## The normalisation moved across the weighted sum -/

theorem attnAtK_eq_attnAtR (sc : EReal) (Q K V : Arr3 4 2048 1024) (hsc : IsReal sc) (hQ : ∀ i, IsReal (Q i)) (hK : ∀ i, IsReal (K i))
    (hV : ∀ i, IsReal (V i)) (b : Fin 4) (q : Fin 2048) (H : Fin 16) (d : Fin 64) :
    attnAtK sc Q K V b q H d = attnAtR sc Q K V b q H d :=
  (softmax_div_comm (fun k => score sc Q K b H q k) (fun k => V (ix3 b k (hcol H d)))
    (fun k => (isReal_score sc Q K hsc hQ hK b H q k).ne_top) ⟨0, by norm_num⟩
    (isReal_score sc Q K hsc hQ hK b H q _).ne_bot (fun k => hV _)).symm

theorem attnK_eq_attnR (sc : EReal) (Q K V : Arr3 4 2048 1024) (hsc : IsReal sc) (hQ : ∀ i, IsReal (Q i)) (hK : ∀ i, IsReal (K i))
    (hV : ∀ i, IsReal (V i)) : attnK sc Q K V = attnR sc Q K V :=
  funext fun i => attnAtK_eq_attnAtR sc Q K V hsc hQ hK hV (i 0) (i 1) (headOf (i 2)) (laneOf (i 2))

/-! ## The regroupings -/

theorem col_zero (n : ℕ) (h : 0 + 1024 ≤ n) (j : Fin 1024) : (col n 0 h j).val = j.val := by
  simp only [col]; omega

/-- The first band of the fused projection, regrouped by batch entry, is the query projection. -/
theorem band0 (x : Arr3 4 2048 1024) (Wq Wk Wv : Arr2 1024 1024) (bq bk bv : Arr1 1024) :
    unflat (proj 3072 0 (by norm_num) (flat x) (wcat Wq Wk Wv) (bcat bq bk bv)) = proj3 x Wq bq := by
  funext i
  obtain ⟨b, s, j, rfl⟩ : ∃ (b : Fin 4) (s : Fin 2048) (j : Fin 1024), i = ix3 b s j := ⟨i 0, i 1, i 2, eq_ix3 i⟩
  rw [unflat_ix3, proj_ix2, proj3_ix3]
  unfold projAt proj3At
  have hj : j.val < 1024 := j.isLt
  have hc : (col 3072 0 (by norm_num) j).val = j.val := by simp only [col]; omega
  have e1 : ∀ k : Fin 1024, wcat Wq Wk Wv (ix2 k (col 3072 0 (by norm_num) j)) = Wq (ix2 k j) := fun k => by
    show (if h1 : (col 3072 0 (by norm_num) j).val < 1024 then Wq (ix2 k ⟨(col 3072 0 (by norm_num) j).val, h1⟩) else _) = _
    rw [dif_pos (by rw [hc]; exact hj)]
    exact congrArg (fun t => Wq (ix2 k t)) (Fin.ext hc)
  have e2 : bcat bq bk bv (ix2 (0 : Fin 1) (col 3072 0 (by norm_num) j)) = bq (ix1 j) := by
    show (if h1 : (col 3072 0 (by norm_num) j).val < 1024 then bq (ix1 ⟨(col 3072 0 (by norm_num) j).val, h1⟩) else _) = _
    rw [dif_pos (by rw [hc]; exact hj)]
    exact congrArg (fun t => bq (ix1 t)) (Fin.ext hc)
  rw [e2]
  refine congrArg (· + bq (ix1 j)) (Finset.sum_congr rfl fun k _ => ?_)
  rw [e1 k, flat_ix2, batchOf_rowOf, seqOf_rowOf]

/-- The second band is the key projection. -/
theorem band1 (x : Arr3 4 2048 1024) (Wq Wk Wv : Arr2 1024 1024) (bq bk bv : Arr1 1024) :
    unflat (proj 3072 1024 (by norm_num) (flat x) (wcat Wq Wk Wv) (bcat bq bk bv)) = proj3 x Wk bk := by
  funext i
  obtain ⟨b, s, j, rfl⟩ : ∃ (b : Fin 4) (s : Fin 2048) (j : Fin 1024), i = ix3 b s j := ⟨i 0, i 1, i 2, eq_ix3 i⟩
  rw [unflat_ix3, proj_ix2, proj3_ix3]
  unfold projAt proj3At
  have hj : j.val < 1024 := j.isLt
  have hc : (col 3072 1024 (by norm_num) j).val = 1024 + j.val := by simp only [col]
  have e1 : ∀ k : Fin 1024, wcat Wq Wk Wv (ix2 k (col 3072 1024 (by norm_num) j)) = Wk (ix2 k j) := fun k => by
    show (if h1 : (col 3072 1024 (by norm_num) j).val < 1024 then _
      else if h2 : (col 3072 1024 (by norm_num) j).val < 2048 then Wk (ix2 k ⟨(col 3072 1024 (by norm_num) j).val - 1024, by omega⟩) else _) = _
    rw [dif_neg (by rw [hc]; omega), dif_pos (by rw [hc]; omega)]
    exact congrArg (fun t => Wk (ix2 k t)) (Fin.ext (by show (col 3072 1024 (by norm_num) j).val - 1024 = j.val; rw [hc]; omega))
  have e2 : bcat bq bk bv (ix2 (0 : Fin 1) (col 3072 1024 (by norm_num) j)) = bk (ix1 j) := by
    show (if h1 : (col 3072 1024 (by norm_num) j).val < 1024 then _
      else if h2 : (col 3072 1024 (by norm_num) j).val < 2048 then bk (ix1 ⟨(col 3072 1024 (by norm_num) j).val - 1024, by omega⟩) else _) = _
    rw [dif_neg (by rw [hc]; omega), dif_pos (by rw [hc]; omega)]
    exact congrArg (fun t => bk (ix1 t)) (Fin.ext (by show (col 3072 1024 (by norm_num) j).val - 1024 = j.val; rw [hc]; omega))
  rw [e2]
  refine congrArg (· + bk (ix1 j)) (Finset.sum_congr rfl fun k _ => ?_)
  rw [e1 k, flat_ix2, batchOf_rowOf, seqOf_rowOf]

/-- The third band is the value projection. -/
theorem band2 (x : Arr3 4 2048 1024) (Wq Wk Wv : Arr2 1024 1024) (bq bk bv : Arr1 1024) :
    unflat (proj 3072 2048 (by norm_num) (flat x) (wcat Wq Wk Wv) (bcat bq bk bv)) = proj3 x Wv bv := by
  funext i
  obtain ⟨b, s, j, rfl⟩ : ∃ (b : Fin 4) (s : Fin 2048) (j : Fin 1024), i = ix3 b s j := ⟨i 0, i 1, i 2, eq_ix3 i⟩
  rw [unflat_ix3, proj_ix2, proj3_ix3]
  unfold projAt proj3At
  have hj : j.val < 1024 := j.isLt
  have hc : (col 3072 2048 (by norm_num) j).val = 2048 + j.val := by simp only [col]
  have e1 : ∀ k : Fin 1024, wcat Wq Wk Wv (ix2 k (col 3072 2048 (by norm_num) j)) = Wv (ix2 k j) := fun k => by
    show (if h1 : (col 3072 2048 (by norm_num) j).val < 1024 then _
      else if h2 : (col 3072 2048 (by norm_num) j).val < 2048 then _
      else Wv (ix2 k ⟨(col 3072 2048 (by norm_num) j).val - 2048, by omega⟩)) = _
    rw [dif_neg (by rw [hc]; omega), dif_neg (by rw [hc]; omega)]
    exact congrArg (fun t => Wv (ix2 k t)) (Fin.ext (by show (col 3072 2048 (by norm_num) j).val - 2048 = j.val; rw [hc]; omega))
  have e2 : bcat bq bk bv (ix2 (0 : Fin 1) (col 3072 2048 (by norm_num) j)) = bv (ix1 j) := by
    show (if h1 : (col 3072 2048 (by norm_num) j).val < 1024 then _
      else if h2 : (col 3072 2048 (by norm_num) j).val < 2048 then _
      else bv (ix1 ⟨(col 3072 2048 (by norm_num) j).val - 2048, by omega⟩)) = _
    rw [dif_neg (by rw [hc]; omega), dif_neg (by rw [hc]; omega)]
    exact congrArg (fun t => bv (ix1 t)) (Fin.ext (by show (col 3072 2048 (by norm_num) j).val - 2048 = j.val; rw [hc]; omega))
  rw [e2]
  refine congrArg (· + bv (ix1 j)) (Finset.sum_congr rfl fun k _ => ?_)
  rw [e1 k, flat_ix2, batchOf_rowOf, seqOf_rowOf]

/-- The output projection of the flattened heads, regrouped by batch entry, is the reference's output projection. -/
theorem outproj (A : Arr3 4 2048 1024) (Wo : Arr2 1024 1024) (bo : Arr1 1024) :
    unflat (proj 1024 0 (by norm_num) (flat A) Wo (brow bo)) = proj3 A Wo bo := by
  funext i
  obtain ⟨b, s, j, rfl⟩ : ∃ (b : Fin 4) (s : Fin 2048) (j : Fin 1024), i = ix3 b s j := ⟨i 0, i 1, i 2, eq_ix3 i⟩
  rw [unflat_ix3, proj_ix2, proj3_ix3]
  unfold projAt proj3At
  have hcj : col 1024 0 (by norm_num) j = j := Fin.ext (by simp only [col]; omega)
  rw [hcj]
  refine congrArg₂ (· + ·) (Finset.sum_congr rfl fun k _ => ?_) rfl
  rw [flat_ix2, batchOf_rowOf, seqOf_rowOf]

/-! ## The two programs' results agree on real inputs -/

theorem kernelOut_eq_refOut (x : Arr3 4 2048 1024) (Wq : Arr2 1024 1024) (bq : Arr1 1024) (Wk : Arr2 1024 1024) (bk : Arr1 1024)
    (Wv : Arr2 1024 1024) (bv : Arr1 1024) (Wo : Arr2 1024 1024) (bo : Arr1 1024)
    (hx : ∀ i, IsReal (x i)) (hWq : ∀ i, IsReal (Wq i)) (hbq : ∀ i, IsReal (bq i)) (hWk : ∀ i, IsReal (Wk i)) (hbk : ∀ i, IsReal (bk i))
    (hWv : ∀ i, IsReal (Wv i)) (hbv : ∀ i, IsReal (bv i)) :
    kernelOut scK x Wq bq Wk bk Wv bv Wo bo = refOut scR x Wq bq Wk bk Wv bv Wo bo := by
  unfold kernelOut refOut
  rw [band0, band1, band2, outproj, scR_eq_scK,
    attnK_eq_attnR scK _ _ _ isReal_scK (isReal_proj3 x Wq bq hx hWq hbq) (isReal_proj3 x Wk bk hx hWk hbk) (isReal_proj3 x Wv bv hx hWv hbv)]

end Cert.Bridge

end
-- ==== Proof.Finite.lean ====
/-
  The precondition says every input entry is a real.

  `finite_inputs` is, array by array, "every |entry| is below +∞", all nine joined by `and`. On the extended reals |x| is
  max x (−x), and the f32 word 0x7F800000 is +∞; so each entry is neither +∞ nor −∞: a real.
-/
import proofs.«135862_j34411277975788_2_alg».proof.Pre_finite_inputs
import proofs.«135862_j34411277975788_2_alg».proof.Proof.LibRealSums
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Math Cert.Pre_finite_inputs

instance : Subsingleton S_.Idx := ⟨fun a b => funext fun d => d.elim0⟩

/-- One array's conjunct: if "every |entry| < +∞" reduces to true, every entry is a real. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : IsReal (x i) := by
  have h1 := Host.reduce_andi_all _ _ hr hu ValueIdx.ix0 e i
  have h2 : Ideal.cmp .olt (max (x i) (-(x i))) (Ideal.ofBits .f32 0x7F800000#32) = 1#1 := h1
  rw [ofBits_inf] at h2
  have h3 : max (x i) (-(x i)) < ⊤ := by
    by_contra hn
    simp [Ideal.cmp, hn] at h2
  exact isReal_of_abs_lt_top h3

variable [Facts]

/-- The precondition, array by array. -/
theorem reals_of_pre (x0 : FVec Ideal S4x2048x1024 .f32) (x1 : FVec Ideal S1024x1024 .f32) (x2 : FVec Ideal S1024 .f32)
    (x3 : FVec Ideal S1024x1024 .f32) (x4 : FVec Ideal S1024 .f32) (x5 : FVec Ideal S1024x1024 .f32) (x6 : FVec Ideal S1024 .f32)
    (x7 : FVec Ideal S1024x1024 .f32) (x8 : FVec Ideal S1024 .f32)
    (h : fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  have h0 := congrFun h ValueIdx.ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ e0, real_of_all x1 _ _ _ e1, real_of_all x2 _ _ _ e2, real_of_all x3 _ _ _ e3, real_of_all x4 _ _ _ e4,
    real_of_all x5 _ _ _ e5, real_of_all x6 _ _ _ e6, real_of_all x7 _ _ _ e7, real_of_all x8 _ _ _ e8⟩

end Cert.Finite

end
-- ==== Proof.lean ====
/-
  Multi-head self-attention over x : [4, 2048, 1024] with 16 heads of 64 lanes, as three pallas_calls — the fused query / key /
  value projection, the attention proper two heads at a time, the output projection — against the plain einsum / softmax
  reference.

  The frames. @main of the kernel program is four stretches of host operations around the three calls. Each call walks its
  grid; at a grid point its body loads its input blocks, computes, and stores over its result block, so what a point leaves
  is a function of its input blocks alone, and the call leaves every array it does not own untouched. The run is the seven
  segments in order; the nine argument arrays are written by no host operation and belong to no call, so they end as
  launched. The same text proves it at the word-level instance and at the extended reals. The reference is host operations
  only; its frame is its run with the result dropped.

  The idealisation rewrote nothing, so its conjunct is trivial.

  The values, on the extended reals. Every call's result is a closed-form function of its operands, and the host stretches only
  re-lay data, so the kernel program returns the specification's kernel arrangement of its arguments (Spec.kernelOut); reading the
  reference's forty-one operations at an index gives its arrangement (Spec.refOut). The two differ in three ways. The kernel
  multiplies the weights joined side by side and reads the product band by band; it flattens batch entries into rows; both
  are the same sums regrouped. The kernel scales the scores by the f32 word 0.125 where the reference divides 1 by √64: the
  same number. And the kernel divides the weighted sum of the values by the softmax row total once, where the reference
  divides every weight first: on the extended reals that exchange needs the scores and values to be real, which they are
  because the precondition makes every input entry a real and sums of products of reals are real.
-/
import proofs.«135862_j34411277975788_2_alg».proof.Defs
import proofs.«135862_j34411277975788_2_alg».proof.Proof.Gen.Kernel
import proofs.«135862_j34411277975788_2_alg».proof.Proof.Gen.KernelIdeal
import proofs.«135862_j34411277975788_2_alg».proof.Proof.Gen.ReferenceIdeal
import proofs.«135862_j34411277975788_2_alg».proof.Proof.Gen.ReferenceIdeal.Run
import proofs.«135862_j34411277975788_2_alg».proof.Proof.Gen.ReferenceIdeal.Read
import proofs.«135862_j34411277975788_2_alg».proof.Proof.Gen.Pre_finite_inputs
import proofs.«135862_j34411277975788_2_alg».proof.Proof.BitsRun
import proofs.«135862_j34411277975788_2_alg».proof.Proof.IdealRun
import proofs.«135862_j34411277975788_2_alg».proof.Proof.IdealValue
import proofs.«135862_j34411277975788_2_alg».proof.Proof.RefValue
import proofs.«135862_j34411277975788_2_alg».proof.Proof.Bridge
import proofs.«135862_j34411277975788_2_alg».proof.Proof.Finite
import proofs.«135862_j34411277975788_2_alg».proof.Proof.Spec
import Idealize.ShloMosaic.Adequacy
import Idealize.ShloMosaic.Init

noncomputable section

namespace Cert.Proof

open Idealize.ShloMosaic Idealize.SL.Sem Cert.Spec

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end, from memories agreeing on the arguments, with the same result: the kernel arrangement of the
    specification, which on real inputs is the reference's. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => kernelOut scK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · -- the kernel program: the run's last boundary read at the result and at the nine arguments
    refine (θ_run Cert.KernelIdeal.defs _ _).mono (fun r h c => ?_) (Cert.KernelIdeal.Hand.run_all (F := Ideal) m ρ)
    have hf := fun (b : Ref Cert.KernelIdeal.sig .tc) (hb : ¬ (Proc.devRef .tc b : DevRef Cert.KernelIdeal.τ Cert.KernelIdeal.sig).isScoped) =>
      h c _ (Cert.KernelIdeal.Hand.mem_uc b hb)
    exact ⟨(hf Cert.KernelIdeal.main_v14 (by decide)).trans (Cert.KernelIdeal.Hand.kernel_value m c),
      (hf Cert.KernelIdeal.main_arg0 (by decide)).trans (Cert.KernelIdeal.Hand.W7_untouched m c _ (by decide) (by decide) (by decide) (by decide) (by decide) (by decide) (by decide)),
      (hf Cert.KernelIdeal.main_arg1 (by decide)).trans (Cert.KernelIdeal.Hand.W7_untouched m c _ (by decide) (by decide) (by decide) (by decide) (by decide) (by decide) (by decide)),
      (hf Cert.KernelIdeal.main_arg2 (by decide)).trans (Cert.KernelIdeal.Hand.W7_untouched m c _ (by decide) (by decide) (by decide) (by decide) (by decide) (by decide) (by decide)),
      (hf Cert.KernelIdeal.main_arg3 (by decide)).trans (Cert.KernelIdeal.Hand.W7_untouched m c _ (by decide) (by decide) (by decide) (by decide) (by decide) (by decide) (by decide)),
      (hf Cert.KernelIdeal.main_arg4 (by decide)).trans (Cert.KernelIdeal.Hand.W7_untouched m c _ (by decide) (by decide) (by decide) (by decide) (by decide) (by decide) (by decide)),
      (hf Cert.KernelIdeal.main_arg5 (by decide)).trans (Cert.KernelIdeal.Hand.W7_untouched m c _ (by decide) (by decide) (by decide) (by decide) (by decide) (by decide) (by decide)),
      (hf Cert.KernelIdeal.main_arg6 (by decide)).trans (Cert.KernelIdeal.Hand.W7_untouched m c _ (by decide) (by decide) (by decide) (by decide) (by decide) (by decide) (by decide)),
      (hf Cert.KernelIdeal.main_arg7 (by decide)).trans (Cert.KernelIdeal.Hand.W7_untouched m c _ (by decide) (by decide) (by decide) (by decide) (by decide) (by decide) (by decide)),
      (hf Cert.KernelIdeal.main_arg8 (by decide)).trans (Cert.KernelIdeal.Hand.W7_untouched m c _ (by decide) (by decide) (by decide) (by decide) (by decide) (by decide) (by decide))⟩
  · -- the reference: its run, its result read as the reference arrangement, the arguments' agreement, and the two arrangements' equality
    refine (θ_run Cert.ReferenceIdeal.defs _ _).mono (fun r h c => ⟨?_, (h c).2⟩) (Cert.ReferenceIdeal.Value.run (F := Ideal) m' ρ')
    obtain ⟨r0, r1, r2, r3, r4, r5, r6, r7, r8⟩ := Cert.Finite.reals_of_pre _ _ _ _ _ _ _ _ _ (hpre c)
    obtain ⟨a0, a1, a2, a3, a4, a5, a6, a7, a8⟩ := hagree c
    rw [(h c).1, Cert.ReferenceIdeal.Read.val_main_v40_eq, a0, a1, a2, a3, a4, a5, a6, a7, a8, Cert.ReferenceIdeal.RefValue.ref_eq]
    exact (Cert.Bridge.kernelOut_eq_refOut _ _ _ _ _ _ _ _ _ r0 r1 r2 r3 r4 r5 r6).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
